-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x1024 : Shape := ⟨3, ![4096, 8, 1024]⟩
abbrev S8x4096x1024 : Shape := ⟨3, ![8, 4096, 1024]⟩
abbrev S1024 : Shape := ⟨1, ![1024]⟩
abbrev S128x1024 : Shape := ⟨2, ![128, 1024]⟩
abbrev S128 : Shape := ⟨1, ![128]⟩
abbrev S1024x128 : Shape := ⟨2, ![1024, 128]⟩
abbrev S_ : Shape := ⟨0, ![]⟩

class Facts : Prop where
  bcast_S_S4096x8x1024 : S_.BroadcastsInDim S4096x8x1024 (![] : Fin 0 → Fin S4096x8x1024.rank)
  reducesTo_S4096x8x1024_S_d0_1_2 : S4096x8x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S1024 : S_.BroadcastsInDim S1024 (![] : Fin 0 → Fin S1024.rank)
  reducesTo_S1024_S_d0 : S1024.ReducesTo [0] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S128x1024 .f32) (main_arg5 : FVec F S128 .f32) (main_arg6 : FVec F S1024x128 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S128x1024 .f32 := Host.absf main_arg4
  let main_cst_6 : FVec F S_ .f32 := constant S_ .f32 0x7F800000#32
  let main_v20 : FVec F S128x1024 .f32 := broadcastInDim S128x1024 ![] bcast_S_S128x1024 main_cst_6
  let main_v21 : IVec S128x1024 1 := cmpf .olt main_v19 main_v20
  let main_c_7 : IVec S_ 1 := constantI S_ 1 1#1
  let main_v22 : IVec S_ 1 := (fun x v => Host.reduce IntOp.andi x v reducesTo_S128x1024_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S1024x128 .f32 := Host.absf main_arg6
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg7 main_v33

def fn {F : FTy → Type} [FloatOps F] (main_arg0 : FVec F S4096x8x1024 .f32) (main_arg1 : FVec F S8x4096x1024 .f32) (main_arg2 : FVec F S1024 .f32) (main_arg3 : FVec F S1024 .f32) (main_arg4 : FVec F S128x1024 .f32) (main_arg5 : FVec F S128 .f32) (main_arg6 : FVec F S1024x128 .f32) (main_arg7 : FVec F S1024 .f32) : IVec S_ 1 :=
  let main_v0 : FVec F S4096x8x1024 .f32 := Host.absf main_arg0
  let main_cst : FVec F S_ .f32 := constant S_ .f32 0x7F800000#32
  let main_v1 : FVec F S4096x8x1024 .f32 := broadcastInDim S4096x8x1024 ![] bcast_S_S4096x8x1024 main_cst
  let main_v2 : IVec S4096x8x1024 1 := cmpf .olt main_v0 main_v1
  let main_c : IVec S_ 1 := constantI S_ 1 1#1
  let main_v3 : IVec S_ 1 := (fun x v => Host.reduce IntOp.andi x v reducesTo_S4096x8x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4096x8x1024 : Shape := ⟨3, ![4096, 8, 1024]⟩
abbrev S8x4096x1024 : Shape := ⟨3, ![8, 4096, 1024]⟩
abbrev S1024 : Shape := ⟨1, ![1024]⟩
abbrev S128x1024 : Shape := ⟨2, ![128, 1024]⟩
abbrev S128 : Shape := ⟨1, ![128]⟩
abbrev S1024x128 : Shape := ⟨2, ![1024, 128]⟩
abbrev S4096x8192 : Shape := ⟨2, ![4096, 8192]⟩
abbrev S128x8192 : Shape := ⟨2, ![128, 8192]⟩
abbrev S8x128x1024 : Shape := ⟨3, ![8, 128, 1024]⟩
abbrev S1x1024 : Shape := ⟨2, ![1, 1024]⟩
abbrev S1x128 : Shape := ⟨2, ![1, 128]⟩
abbrev S128x128 : Shape := ⟨2, ![128, 128]⟩
abbrev S1x128x1024 : Shape := ⟨3, ![1, 128, 1024]⟩
abbrev S128x1 : Shape := ⟨2, ![128, 1]⟩

abbrev nBuf : Space → Nat
  | .hbm => 15
  | .vmem => 12
  | .smem => 0
  | _ => 0

abbrev bufTy : (tb : Table) → Fin (tcTables nBuf tb) → BufTy
  | .hbm, ⟨0, _⟩ => ⟨S4096x8x1024, .f32⟩
  | .hbm, ⟨1, _⟩ => ⟨S8x4096x1024, .f32⟩
  | .hbm, ⟨2, _⟩ => ⟨S1024, .f32⟩
  | .hbm, ⟨3, _⟩ => ⟨S1024, .f32⟩
  | .hbm, ⟨4, _⟩ => ⟨S128x1024, .f32⟩
  | .hbm, ⟨5, _⟩ => ⟨S128, .f32⟩
  | .hbm, ⟨6, _⟩ => ⟨S1024x128, .f32⟩
  | .hbm, ⟨7, _⟩ => ⟨S1024, .f32⟩
  | .hbm, ⟨8, _⟩ => ⟨S4096x8192, .f32⟩
  | .hbm, ⟨9, _⟩ => ⟨S1024x128, .f32⟩
  | .hbm, ⟨10, _⟩ => ⟨S1024x128, .bf16⟩
  | .hbm, ⟨11, _⟩ => ⟨S128x1024, .f32⟩
  | .hbm, ⟨12, _⟩ => ⟨S128x1024, .bf16⟩
  | .hbm, ⟨13, _⟩ => ⟨S4096x8192, .f32⟩
  | .hbm, ⟨14, _⟩ => ⟨S4096x8x1024, .f32⟩
  | .local _ .vmem, ⟨0, _⟩ => ⟨S128x8192, .f32⟩
  | .local _ .vmem, ⟨1, _⟩ => ⟨S128x8192, .f32⟩
  | .local _ .vmem, ⟨2, _⟩ => ⟨S8x128x1024, .f32⟩
  | .local _ .vmem, ⟨3, _⟩ => ⟨S8x128x1024, .f32⟩
  | .local _ .vmem, ⟨4, _⟩ => ⟨S1024, .f32⟩
  | .local _ .vmem, ⟨5, _⟩ => ⟨S1024, .f32⟩
  | .local _ .vmem, ⟨6, _⟩ => ⟨S1024x128, .bf16⟩
  | .local _ .vmem, ⟨7, _⟩ => ⟨S128, .f32⟩
  | .local _ .vmem, ⟨8, _⟩ => ⟨S128x1024, .bf16⟩
  | .local _ .vmem, ⟨9, _⟩ => ⟨S1024, .f32⟩
  | .local _ .vmem, ⟨10, _⟩ => ⟨S128x8192, .f32⟩
  | .local _ .vmem, ⟨11, _⟩ => ⟨S128x8192, .f32⟩
  | _, _ => ⟨S4096x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4096x8x1024_S4096x8192 : S4096x8x1024.ShapeCasts S4096x8192
  transposes_S128x1024_S1024x128_1_0 : S128x1024.Transposes [1, 0] S1024x128
  bitsLt_bf16_f32 : FTy.bits .bf16 < FTy.bits .f32
  transposes_S1024x128_S128x1024_1_0 : S1024x128.Transposes [1, 0] S128x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S128x8192_S128x1024_0_0 : ∀ a, (![0, 0] : Fin 2 → Nat) a + S128x1024.size a ≤ S128x8192.size a
  inb_S8x128x1024_S1x128x1024_0_0_0 : ∀ a, (![0, 0, 0] : Fin 3 → Nat) a + S1x128x1024.size a ≤ S8x128x1024.size a
  h_S1x128x1024 : 0 < S1x128x1024.numel
  shapeCasts_S1x128x1024_S128x1024 : S1x128x1024.ShapeCasts S128x1024
  reduces_S128x1024_S128 : S128x1024.Reduces [1] S128
  shapeCasts_S128_S128x1 : S128.ShapeCasts S128x1
  broadcasts_S128x1_S128x1024 : S128x1.Broadcasts S128x1024
  inb_S128x8192_S128x1024_0_1024 : ∀ a, (![0, 1024] : Fin 2 → Nat) a + S128x1024.size a ≤ S128x8192.size a
  inb_S8x128x1024_S1x128x1024_1_0_0 : ∀ a, (![1, 0, 0] : Fin 3 → Nat) a + S1x128x1024.size a ≤ S8x128x1024.size a
  inb_S128x8192_S128x1024_0_2048 : ∀ a, (![0, 2048] : Fin 2 → Nat) a + S128x1024.size a ≤ S128x8192.size a
  inb_S8x128x1024_S1x128x1024_2_0_0 : ∀ a, (![2, 0, 0] : Fin 3 → Nat) a + S1x128x1024.size a ≤ S8x128x1024.size a
  inb_S128x8192_S128x1024_0_3072 : ∀ a, (![0, 3072] : Fin 2 → Nat) a + S128x1024.size a ≤ S128x8192.size a
  inb_S8x128x1024_S1x128x1024_3_0_0 : ∀ a, (![3, 0, 0] : Fin 3 → Nat) a + S1x128x1024.size a ≤ S8x128x1024.size a
  inb_S128x8192_S128x1024_0_4096 : ∀ a, (![0, 4096] : Fin 2 → Nat) a + S128x1024.size a ≤ S128x8192.size a
  inb_S8x128x1024_S1x128x1024_4_0_0 : ∀ a, (![4, 0, 0] : Fin 3 → Nat) a + S1x128x1024.size a ≤ S8x128x1024.size a
  inb_S128x8192_S128x1024_0_5120 : ∀ a, (![0, 5120] : Fin 2 → Nat) a + S128x1024.size a ≤ S128x8192.size a
  inb_S8x128x1024_S1x128x1024_5_0_0 : ∀ a, (![5, 0, 0] : Fin 3 → Nat) a + S1x128x1024.size a ≤ S8x128x1024.size a
  inb_S128x8192_S128x1024_0_6144 : ∀ a, (![0, 6144] : Fin 2 → Nat) a + S128x1024.size a ≤ S128x8192.size a
  inb_S8x128x1024_S1x128x1024_6_0_0 : ∀ a, (![6, 0, 0] : Fin 3 → Nat) a + S1x128x1024.size a ≤ S8x128x1024.size a
  inb_S128x8192_S128x1024_0_7168 : ∀ a, (![0, 7168] : Fin 2 → Nat) a + S128x1024.size a ≤ S128x8192.size a
  inb_S8x128x1024_S1x128x1024_7_0_0 : ∀ a, (![7, 0, 0] : Fin 3 → Nat) a + S1x128x1024.size a ≤ S8x128x1024.size a
  shapeCasts_S4096x8192_S4096x8x1024 : S4096x8192.ShapeCasts S4096x8x1024
  dot_S128x1024_S1024x128_S128x128_1_0_0_1_n_n_wf : DotDims.WF S128x1024 S1024x128 S128x128 [1] [0] [0] [1] [] []
  dot_S128x128_S128x1024_S128x1024_1_0_0_1_n_n_wf : DotDims.WF S128x128 S128x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S4096x8192.size a
  hwx0_0 : ∀ i : grid0.Coords, EltTy.bits .f32 = 32 ∨ (Rect.block (s := S4096x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1024.size a ≤ S8x4096x1024.size a
  hwx0_1 : ∀ i : grid0.Coords, EltTy.bits .f32 = 32 ∨ (Rect.block (s := S8x4096x1024) S8x128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .bf16 = 32 ∨ (Rect.block (s := S1024x128) S1024x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S128x1024.size a
  hwx0_6 : ∀ i : grid0.Coords, EltTy.bits .bf16 = 32 ∨ (Rect.block (s := S128x1024) S128x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x8192.size a ≤ S4096x8192.size a
  hwx0_8 : ∀ i : grid0.Coords, EltTy.bits .f32 = 32 ∨ (Rect.block (s := S4096x8192) S128x8192.size (cc0_transform_8 i) (hinb0_8 i)).WholeWords (EltTy.packing .f32)

variable [Facts₀]

def dot_S128x1024_S1024x128_S128x128_1_0_0_1_n_n : DotDims S128x1024 S1024x128 S128x128 where
  lhsContracting := [1]
  rhsContracting := [0]
  lhsNonContracting := [0]
  rhsNonContracting := [1]
  lhsBatch := []
  rhsBatch := []
  wf := dot_S128x1024_S1024x128_S128x128_1_0_0_1_n_n_wf
def dot_S128x128_S128x1024_S128x1024_1_0_0_1_n_n : DotDims S128x128 S128x1024 S128x1024 where
  lhsContracting := [1]
  rhsContracting := [0]
  lhsNonContracting := [0]
  rhsNonContracting := [1]
  lhsBatch := []
  rhsBatch := []
  wf := dot_S128x128_S128x1024_S128x1024_1_0_0_1_n_n_wf

abbrev win0_0 : Pipeline.Window sig grid0 :=
  Pipeline.Window.ofSpec (Memref.whole main_v0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S128x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S128x8192.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x8x1024 : Shape := ⟨3, ![4096, 8, 1024]⟩
abbrev S8x4096x1024 : Shape := ⟨3, ![8, 4096, 1024]⟩
abbrev S1024 : Shape := ⟨1, ![1024]⟩
abbrev S128x1024 : Shape := ⟨2, ![128, 1024]⟩
abbrev S128 : Shape := ⟨1, ![128]⟩
abbrev S1024x128 : Shape := ⟨2, ![1024, 128]⟩
abbrev S_ : Shape := ⟨0, ![]⟩
abbrev S4096x8 : Shape := ⟨2, ![4096, 8]⟩
abbrev S4096x8x1 : Shape := ⟨3, ![4096, 8, 1]⟩
abbrev S1x1x1024 : Shape := ⟨3, ![1, 1, 1024]⟩
abbrev S4096x8x128 : Shape := ⟨3, ![4096, 8, 128]⟩
abbrev S1x1x128 : Shape := ⟨3, ![1, 1, 128]⟩

abbrev nBuf : Space → Nat
  | .hbm => 51
  | .vmem => 0
  | .smem => 0
  | _ => 0

abbrev bufTy : (tb : Table) → Fin (tcTables nBuf tb) → BufTy
  | .hbm, ⟨0, _⟩ => ⟨S4096x8x1024, .f32⟩
  | .hbm, ⟨1, _⟩ => ⟨S8x4096x1024, .f32⟩
  | .hbm, ⟨2, _⟩ => ⟨S1024, .f32⟩
  | .hbm, ⟨3, _⟩ => ⟨S1024, .f32⟩
  | .hbm, ⟨4, _⟩ => ⟨S128x1024, .f32⟩
  | .hbm, ⟨5, _⟩ => ⟨S128, .f32⟩
  | .hbm, ⟨6, _⟩ => ⟨S1024x128, .f32⟩
  | .hbm, ⟨7, _⟩ => ⟨S1024, .f32⟩
  | .hbm, ⟨8, _⟩ => ⟨S4096x8x1024, .f32⟩
  | .hbm, ⟨9, _⟩ => ⟨S4096x8x1024, .f32⟩
  | .hbm, ⟨10, _⟩ => ⟨S_, .f32⟩
  | .hbm, ⟨11, _⟩ => ⟨S4096x8, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S4096x8x1024, .f32⟩
  | .hbm, ⟨17, _⟩ => ⟨S4096x8x1024, .f32⟩
  | .hbm, ⟨18, _⟩ => ⟨S4096x8x1024, .f32⟩
  | .hbm, ⟨19, _⟩ => ⟨S_, .f32⟩
  | .hbm, ⟨20, _⟩ => ⟨S4096x8, .f32⟩
  | .hbm, ⟨21, _⟩ => ⟨S4096x8x1, .f32⟩
  | .hbm, ⟨22, _⟩ => ⟨S_, .f32⟩
  | .hbm, ⟨23, _⟩ => ⟨S4096x8x1, .f32⟩
  | .hbm, ⟨24, _⟩ => ⟨S4096x8x1, .f32⟩
  | .hbm, ⟨25, _⟩ => ⟨S4096x8x1024, .f32⟩
  | .hbm, ⟨26, _⟩ => ⟨S4096x8x1024, .f32⟩
  | .hbm, ⟨27, _⟩ => ⟨S_, .f32⟩
  | .hbm, ⟨28, _⟩ => ⟨S4096x8x1, .f32⟩
  | .hbm, ⟨29, _⟩ => ⟨S4096x8x1, .f32⟩
  | .hbm, ⟨30, _⟩ => ⟨S4096x8x1, .f32⟩
  | .hbm, ⟨31, _⟩ => ⟨S4096x8x1024, .f32⟩
  | .hbm, ⟨32, _⟩ => ⟨S4096x8x1024, .f32⟩
  | .hbm, ⟨33, _⟩ => ⟨S1x1x1024, .f32⟩
  | .hbm, ⟨34, _⟩ => ⟨S4096x8x1024, .f32⟩
  | .hbm, ⟨35, _⟩ => ⟨S4096x8x1024, .f32⟩
  | .hbm, ⟨36, _⟩ => ⟨S1x1x1024, .f32⟩
  | .hbm, ⟨37, _⟩ => ⟨S4096x8x1024, .f32⟩
  | .hbm, ⟨38, _⟩ => ⟨S4096x8x1024, .f32⟩
  | .hbm, ⟨39, _⟩ => ⟨S4096x8x128, .f32⟩
  | .hbm, ⟨40, _⟩ => ⟨S1x1x128, .f32⟩
  | .hbm, ⟨41, _⟩ => ⟨S4096x8x128, .f32⟩
  | .hbm, ⟨42, _⟩ => ⟨S4096x8x128, .f32⟩
  | .hbm, ⟨43, _⟩ => ⟨S_, .f32⟩
  | .hbm, ⟨44, _⟩ => ⟨S4096x8x128, .f32⟩
  | .hbm, ⟨45, _⟩ => ⟨S4096x8x128, .f32⟩
  | .hbm, ⟨46, _⟩ => ⟨S4096x8x1024, .f32⟩
  | .hbm, ⟨47, _⟩ => ⟨S1x1x1024, .f32⟩
  | .hbm, ⟨48, _⟩ => ⟨S4096x8x1024, .f32⟩
  | .hbm, ⟨49, _⟩ => ⟨S4096x8x1024, .f32⟩
  | .hbm, ⟨50, _⟩ => ⟨S4096x8x1024, .f32⟩
  | _, _ => ⟨S4096x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_call0_cst : Ref sig .tc := ⟨.hbm, 43, rfl⟩
abbrev main_call0_v0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  transposes_S8x4096x1024_S4096x8x1024_1_0_2 : S8x4096x1024.Transposes [1, 0, 2] S4096x8x1024
  reducesTo_S4096x8x1024_S4096x8_d2 : S4096x8x1024.ReducesTo [2] S4096x8
  h_S_ : 0 < S_.numel
  bcast_S4096x8_S4096x8x1_0_1 : S4096x8.BroadcastsInDim S4096x8x1 (![0, 1] : Fin 2 → Fin S4096x8x1.rank)
  bcast_S_S4096x8x1 : S_.BroadcastsInDim S4096x8x1 (![] : Fin 0 → Fin S4096x8x1.rank)
  bcast_S4096x8x1_S4096x8x1024_0_1_2 : S4096x8x1.BroadcastsInDim S4096x8x1024 (![0, 1, 2] : Fin 3 → Fin S4096x8x1024.rank)
  bcast_S1024_S1x1x1024_2 : S1024.BroadcastsInDim S1x1x1024 (![2] : Fin 1 → Fin S1x1x1024.rank)
  bcast_S1x1x1024_S4096x8x1024_0_1_2 : S1x1x1024.BroadcastsInDim S4096x8x1024 (![0, 1, 2] : Fin 3 → Fin S4096x8x1024.rank)
  bcast_S128_S1x1x128_2 : S128.BroadcastsInDim S1x1x128 (![2] : Fin 1 → Fin S1x1x128.rank)
  bcast_S1x1x128_S4096x8x128_0_1_2 : S1x1x128.BroadcastsInDim S4096x8x128 (![0, 1, 2] : Fin 3 → Fin S4096x8x128.rank)
  bcast_S_S4096x8x128 : S_.BroadcastsInDim S4096x8x128 (![] : Fin 0 → Fin S4096x8x128.rank)
  dot_S4096x8x1024_S128x1024_S4096x8x128_2_1_01_0_n_n_wf : DotDims.WF S4096x8x1024 S128x1024 S4096x8x128 [2] [1] [0, 1] [0] [] []
  dot_S4096x8x128_S1024x128_S4096x8x1024_2_1_01_0_n_n_wf : DotDims.WF S4096x8x128 S1024x128 S4096x8x1024 [2] [1] [0, 1] [0] [] []

variable [Facts₀]

def dot_S4096x8x1024_S128x1024_S4096x8x128_2_1_01_0_n_n : DotDims S4096x8x1024 S128x1024 S4096x8x128 where
  lhsContracting := [2]
  rhsContracting := [1]
  lhsNonContracting := [0, 1]
  rhsNonContracting := [0]
  lhsBatch := []
  rhsBatch := []
  wf := dot_S4096x8x1024_S128x1024_S4096x8x128_2_1_01_0_n_n_wf
def dot_S4096x8x128_S1024x128_S4096x8x1024_2_1_01_0_n_n : DotDims S4096x8x128 S1024x128 S4096x8x1024 where
  lhsContracting := [2]
  rhsContracting := [1]
  lhsNonContracting := [0, 1]
  rhsNonContracting := [0]
  lhsBatch := []
  rhsBatch := []
  wf := dot_S4096x8x128_S1024x128_S4096x8x1024_2_1_01_0_n_n_wf

class Facts : Prop extends Facts₀ where

variable [Facts]
-- ==== Proof.Spec.lean ====
/-
  The function both programs compute, on the extended reals, one row at a time.

  A row r of 1024 entries (the sum of an activation row and a residual row) is normalised — its mean taken away, the
  result scaled by the reciprocal square root of the variance plus a small constant, then by a gain, and shifted by an
  offset —, sent through a 1024 → 128 affine map, rectified, sent through a 128 → 1024 affine map, and the row itself is
  added back. Every sum is a plain finite sum; the three float constants (1024, the small constant, zero) stay the
  words the programs print, the same on both sides, so they are never evaluated.

  outAt reads the whole computation at one entry (s, b, d) of the [4096, 8, 1024] result: the row is
  x[s, b, ·] + residual[b, s, ·] (the residual is stored with its two leading axes the other way round).
-/
import Idealize.ShloMosaic.PureOps.Ideal
import Idealize.ShloMosaic.Lib.ValueIdx

noncomputable section

open scoped BigOperators

namespace Cert.Adapter

open Idealize.ShloMosaic Idealize.ShloMosaic.ValueIdx

/-- The mean of a row: its sum over the 1024 entries, divided by the constant 1024. -/
def mean (r : Fin 1024 → EReal) : EReal :=
  Ideal.div (∑ k : Fin 1024, r k) (Ideal.ofBits .f32 0x44800000#32)

/-- A row's entry with the row's mean taken away. -/
def dev (r : Fin 1024 → EReal) (d : Fin 1024) : EReal := r d - mean r

/-- The variance of a row: the mean of the squared deviations. -/
def var (r : Fin 1024 → EReal) : EReal :=
  Ideal.div (∑ k : Fin 1024, dev r k * dev r k) (Ideal.ofBits .f32 0x44800000#32)

/-- The normalised row: deviation times 1/sqrt(variance + constant), times the gain, plus the offset. -/
def normed (r g be : Fin 1024 → EReal) (d : Fin 1024) : EReal :=
  dev r d * Ideal.rsqrt (var r + Ideal.ofBits .f32 0x3727C5AC#32) * g d + be d

/-- The rectified hidden unit k of a row h: max(Σ_d h d · wd k d + bd k, 0). -/
def hidden (h : Fin 1024 → EReal) (wd : Fin 128 → Fin 1024 → EReal) (bd : Fin 128 → EReal) (k : Fin 128) : EReal :=
  max ((∑ d : Fin 1024, h d * wd k d) + bd k) (Ideal.ofBits .f32 0x00000000#32)

/-- Entry d of the result row: (Σ_k hidden k · wu d k + bu d) + r d. -/
def rowOut (r g be : Fin 1024 → EReal) (wd : Fin 128 → Fin 1024 → EReal) (bd : Fin 128 → EReal)
    (wu : Fin 1024 → Fin 128 → EReal) (bu : Fin 1024 → EReal) (d : Fin 1024) : EReal :=
  (∑ k : Fin 128, hidden (normed r g be) wd bd k * wu d k) + bu d + r d

/-- The result at (s, b, d) as a function of the eight argument arrays. -/
def outAt (x0 : FVec Ideal ⟨3, ![4096, 8, 1024]⟩ .f32) (x1 : FVec Ideal ⟨3, ![8, 4096, 1024]⟩ .f32)
    (x2 x3 : FVec Ideal ⟨1, ![1024]⟩ .f32) (x4 : FVec Ideal ⟨2, ![128, 1024]⟩ .f32) (x5 : FVec Ideal ⟨1, ![128]⟩ .f32)
    (x6 : FVec Ideal ⟨2, ![1024, 128]⟩ .f32) (x7 : FVec Ideal ⟨1, ![1024]⟩ .f32)
    (s : Fin 4096) (b : Fin 8) (d : Fin 1024) : EReal :=
  rowOut (fun e => x0 (ix3 s b e) + x1 (ix3 b s e)) (fun e => x2 (ix1 e)) (fun e => x3 (ix1 e))
    (fun k e => x4 (ix2 k e)) (fun k => x5 (ix1 k)) (fun e k => x6 (ix2 e k)) (fun e => x7 (ix1 e)) d

/-- The whole result array. -/
def out (x0 : FVec Ideal ⟨3, ![4096, 8, 1024]⟩ .f32) (x1 : FVec Ideal ⟨3, ![8, 4096, 1024]⟩ .f32)
    (x2 x3 : FVec Ideal ⟨1, ![1024]⟩ .f32) (x4 : FVec Ideal ⟨2, ![128, 1024]⟩ .f32) (x5 : FVec Ideal ⟨1, ![128]⟩ .f32)
    (x6 : FVec Ideal ⟨2, ![1024, 128]⟩ .f32) (x7 : FVec Ideal ⟨1, ![1024]⟩ .f32) :
    FVec Ideal ⟨3, ![4096, 8, 1024]⟩ .f32 :=
  fun i => outAt x0 x1 x2 x3 x4 x5 x6 x7 (i 0) (i 1) (i 2)

theorem out_apply (x0 : FVec Ideal ⟨3, ![4096, 8, 1024]⟩ .f32) (x1 : FVec Ideal ⟨3, ![8, 4096, 1024]⟩ .f32)
    (x2 x3 : FVec Ideal ⟨1, ![1024]⟩ .f32) (x4 : FVec Ideal ⟨2, ![128, 1024]⟩ .f32) (x5 : FVec Ideal ⟨1, ![128]⟩ .f32)
    (x6 : FVec Ideal ⟨2, ![1024, 128]⟩ .f32) (x7 : FVec Ideal ⟨1, ![1024]⟩ .f32) (s : Fin 4096) (b : Fin 8) (d : Fin 1024) :
    out x0 x1 x2 x3 x4 x5 x6 x7 (ix3 s b d) = outAt x0 x1 x2 x3 x4 x5 x6 x7 s b d := rfl

end Cert.Adapter

end
-- ==== Proof.RefRead.lean ====
/-
  The reference program's result, read at one entry, is the specification.

  The reference computes the result array one whole-array operation at a time. Read at an entry (s, b, d), each
  operation is the corresponding step of the specification on the row r = x[s, b, ·] + residual[b, s, ·]: the row sum
  and its quotient by 1024 (the mean), the deviation, the sum of squared deviations and its quotient (the variance),
  the reciprocal square root of the variance plus the small constant, the gain and the offset, the 1024 → 128 affine
  map with its rectification, the 128 → 1024 affine map, and the row added back. Both sides perform the same
  operations in the same order; only the way an entry is addressed differs, so every step is an equation between
  indices followed by the previous step.
-/
import proofs.«144096_j3564822856011_2_alg».proof.Proof.Spec
import proofs.«144096_j3564822856011_2_alg».proof.Proof.Gen.ReferenceIdeal.Read
import Idealize.ShloMosaic.PureOps.Ideal.Laws

noncomputable section
open scoped BigOperators
namespace Cert.Adapter.RefRead
open Cert.ReferenceIdeal Cert.ReferenceIdeal.Read Idealize.ShloMosaic Idealize.ShloMosaic.ValueIdx Cert.Adapter

/-! ## Index equations: where each layout operation, sum and product reads its operand -/

theorem idx_v0 (s : Fin 4096) (b : Fin 8) (e : Fin 1024) : idx_main_v0 (ix3 s b e) = ix3 b s e :=
  funext fun a => Fin.ext (by match a with | ⟨0, _⟩ => rfl | ⟨1, _⟩ => rfl | ⟨2, _⟩ => rfl)

theorem idx_v2 (s : Fin 4096) (b : Fin 8) (k : Fin 1024) : idx_main_v2 (ix2 s b) k = ix3 s b k :=
  funext fun a => Fin.ext (by match a with | ⟨0, _⟩ => rfl | ⟨1, _⟩ => rfl | ⟨2, _⟩ => rfl)

theorem idx_v3 (s : Fin 4096) (b : Fin 8) (u : Fin 1) : idx_main_v3 (ix3 s b u) = ix2 s b :=
  funext fun a => Fin.ext (by match a with | ⟨0, _⟩ => rfl | ⟨1, _⟩ => rfl)

theorem idx_v6 (s : Fin 4096) (b : Fin 8) (e : Fin 1024) : idx_main_v6 (ix3 s b e) = ix3 s b (0 : Fin 1) :=
  funext fun a => Fin.ext (by match a with | ⟨0, _⟩ => rfl | ⟨1, _⟩ => rfl | ⟨2, _⟩ => rfl)

theorem idx_v9 (s : Fin 4096) (b : Fin 8) (k : Fin 1024) : idx_main_v9 (ix2 s b) k = ix3 s b k :=
  funext fun a => Fin.ext (by match a with | ⟨0, _⟩ => rfl | ⟨1, _⟩ => rfl | ⟨2, _⟩ => rfl)

theorem idx_v10 (s : Fin 4096) (b : Fin 8) (u : Fin 1) : idx_main_v10 (ix3 s b u) = ix2 s b :=
  funext fun a => Fin.ext (by match a with | ⟨0, _⟩ => rfl | ⟨1, _⟩ => rfl)

theorem idx_v13 (s : Fin 4096) (b : Fin 8) (e : Fin 1024) : idx_main_v13 (ix3 s b e) = ix3 s b (0 : Fin 1) :=
  funext fun a => Fin.ext (by match a with | ⟨0, _⟩ => rfl | ⟨1, _⟩ => rfl | ⟨2, _⟩ => rfl)

theorem idx_v18 (s : Fin 4096) (b : Fin 8) (e : Fin 1024) : idx_main_v18 (ix3 s b e) = ix3 s b (0 : Fin 1) :=
  funext fun a => Fin.ext (by match a with | ⟨0, _⟩ => rfl | ⟨1, _⟩ => rfl | ⟨2, _⟩ => rfl)

theorem idx_v21 (s : Fin 4096) (b : Fin 8) (e : Fin 1024) : idx_main_v21 (ix3 s b e) = ix3 (0 : Fin 1) (0 : Fin 1) e :=
  funext fun a => Fin.ext (by match a with | ⟨0, _⟩ => rfl | ⟨1, _⟩ => rfl | ⟨2, _⟩ => rfl)

theorem idx_v20 (u v : Fin 1) (e : Fin 1024) : idx_main_v20 (ix3 u v e) = ix1 e :=
  funext fun a => Fin.ext (by match a with | ⟨0, _⟩ => rfl)

theorem idx_v24 (s : Fin 4096) (b : Fin 8) (e : Fin 1024) : idx_main_v24 (ix3 s b e) = ix3 (0 : Fin 1) (0 : Fin 1) e :=
  funext fun a => Fin.ext (by match a with | ⟨0, _⟩ => rfl | ⟨1, _⟩ => rfl | ⟨2, _⟩ => rfl)

theorem idx_v23 (u v : Fin 1) (e : Fin 1024) : idx_main_v23 (ix3 u v e) = ix1 e :=
  funext fun a => Fin.ext (by match a with | ⟨0, _⟩ => rfl)

theorem lidx_v26 (s : Fin 4096) (b : Fin 8) (k : Fin 128) (e : Fin 1024) : lidx_main_v26 (ix3 s b k) e = ix3 s b e :=
  funext fun a => Fin.ext (by match a with | ⟨0, _⟩ => rfl | ⟨1, _⟩ => rfl | ⟨2, _⟩ => rfl)

theorem ridx_v26 (s : Fin 4096) (b : Fin 8) (k : Fin 128) (e : Fin 1024) : ridx_main_v26 (ix3 s b k) e = ix2 k e :=
  funext fun a => Fin.ext (by match a with | ⟨0, _⟩ => rfl | ⟨1, _⟩ => rfl)

theorem idx_v28 (s : Fin 4096) (b : Fin 8) (k : Fin 128) : idx_main_v28 (ix3 s b k) = ix3 (0 : Fin 1) (0 : Fin 1) k :=
  funext fun a => Fin.ext (by match a with | ⟨0, _⟩ => rfl | ⟨1, _⟩ => rfl | ⟨2, _⟩ => rfl)

theorem idx_v27 (u v : Fin 1) (k : Fin 128) : idx_main_v27 (ix3 u v k) = ix1 k :=
  funext fun a => Fin.ext (by match a with | ⟨0, _⟩ => rfl)

theorem lidx_v31 (s : Fin 4096) (b : Fin 8) (d : Fin 1024) (k : Fin 128) : lidx_main_v31 (ix3 s b d) k = ix3 s b k :=
  funext fun a => Fin.ext (by match a with | ⟨0, _⟩ => rfl | ⟨1, _⟩ => rfl | ⟨2, _⟩ => rfl)

theorem ridx_v31 (s : Fin 4096) (b : Fin 8) (d : Fin 1024) (k : Fin 128) : ridx_main_v31 (ix3 s b d) k = ix2 d k :=
  funext fun a => Fin.ext (by match a with | ⟨0, _⟩ => rfl | ⟨1, _⟩ => rfl)

theorem idx_v33 (s : Fin 4096) (b : Fin 8) (e : Fin 1024) : idx_main_v33 (ix3 s b e) = ix3 (0 : Fin 1) (0 : Fin 1) e :=
  funext fun a => Fin.ext (by match a with | ⟨0, _⟩ => rfl | ⟨1, _⟩ => rfl | ⟨2, _⟩ => rfl)

theorem idx_v32 (u v : Fin 1) (e : Fin 1024) : idx_main_v32 (ix3 u v e) = ix1 e :=
  funext fun a => Fin.ext (by match a with | ⟨0, _⟩ => rfl)

/-! ## The stages at an entry -/

section Stages

variable (x0 : (⟨S4096x8x1024, .f32⟩ : BufTy).Contents (Elt Ideal)) (x1 : (⟨S8x4096x1024, .f32⟩ : BufTy).Contents (Elt Ideal))
  (x2 x3 : (⟨S1024, .f32⟩ : BufTy).Contents (Elt Ideal)) (x4 : (⟨S128x1024, .f32⟩ : BufTy).Contents (Elt Ideal))
  (x5 : (⟨S128, .f32⟩ : BufTy).Contents (Elt Ideal)) (x6 : (⟨S1024x128, .f32⟩ : BufTy).Contents (Elt Ideal))
  (x7 : (⟨S1024, .f32⟩ : BufTy).Contents (Elt Ideal))

/-- The row at (s, b): the activation row plus the residual row, whose two leading axes are stored the other way round. -/
abbrev row (s : Fin 4096) (b : Fin 8) : Fin 1024 → EReal := fun e => x0 (ix3 s b e) + x1 (ix3 b s e)

/-- The summed input at (s, b, e) is entry e of the row. -/
theorem v1_at (s : Fin 4096) (b : Fin 8) (e : Fin 1024) :
    val_main_v1 (F := Ideal) x0 x1 (ix3 s b e) = row x0 x1 s b e := by
  refine (val_main_v1_apply x0 x1 _).trans ?_
  show x0 (ix3 s b e) + val_main_v0 (F := Ideal) x1 (ix3 s b e) = x0 (ix3 s b e) + x1 (ix3 b s e)
  refine congrArg (x0 (ix3 s b e) + ·) ?_
  exact (val_main_v0_apply x1 _).trans (congrArg x1 (idx_v0 s b e))

/-- The first sum's initial value is zero. -/
theorem cst_at (i : S_.Idx) : val_main_cst (F := Ideal) i = 0 := Ideal.ofBits_zero_f32

/-- The second sum's initial value is zero. -/
theorem cst_1_at (i : S_.Idx) : val_main_cst_1 (F := Ideal) i = 0 := Ideal.ofBits_zero_f32

/-- The row sums at (s, b): zero plus the sum of the row is the sum of the row. -/
theorem v2_at (s : Fin 4096) (b : Fin 8) :
    val_main_v2 (F := Ideal) x0 x1 (ix2 s b) = ∑ k : Fin 1024, row x0 x1 s b k := by
  refine (val_main_v2_apply x0 x1 _).trans ?_
  rw [cst_at, zero_add]
  refine Finset.sum_congr rfl fun k _ => ?_
  exact (congrArg (val_main_v1 (F := Ideal) x0 x1) (idx_v2 s b k)).trans (v1_at x0 x1 s b k)

/-- The splat of the constant 1024 reads that constant everywhere. -/
theorem v4_at (i : S4096x8x1.Idx) : val_main_v4 (F := Ideal) i = Ideal.ofBits .f32 0x44800000#32 :=
  (val_main_v4_apply i).trans rfl

/-- The mean column at (s, b) is the row's mean. -/
theorem v5_at (s : Fin 4096) (b : Fin 8) (u : Fin 1) :
    val_main_v5 (F := Ideal) x0 x1 (ix3 s b u) = mean (row x0 x1 s b) := by
  refine (val_main_v5_apply x0 x1 _).trans ?_
  show Ideal.div (val_main_v3 (F := Ideal) x0 x1 (ix3 s b u)) (val_main_v4 (F := Ideal) (ix3 s b u))
    = Ideal.div (∑ k : Fin 1024, row x0 x1 s b k) (Ideal.ofBits .f32 0x44800000#32)
  refine congrArg₂ Ideal.div ?_ (v4_at _)
  exact (val_main_v3_apply x0 x1 _).trans
    ((congrArg (val_main_v2 (F := Ideal) x0 x1) (idx_v3 s b u)).trans (v2_at x0 x1 s b))

/-- The first difference from the broadcast mean is the row's deviation. -/
theorem v7_at (s : Fin 4096) (b : Fin 8) (e : Fin 1024) :
    val_main_v7 (F := Ideal) x0 x1 (ix3 s b e) = dev (row x0 x1 s b) e := by
  refine (val_main_v7_apply x0 x1 _).trans ?_
  show val_main_v1 (F := Ideal) x0 x1 (ix3 s b e) - val_main_v6 (F := Ideal) x0 x1 (ix3 s b e)
    = row x0 x1 s b e - mean (row x0 x1 s b)
  refine congrArg₂ (· - ·) (v1_at x0 x1 s b e) ?_
  exact (val_main_v6_apply x0 x1 _).trans
    ((congrArg (val_main_v5 (F := Ideal) x0 x1) (idx_v6 s b e)).trans (v5_at x0 x1 s b 0))

/-- The second difference from the broadcast mean is the same deviation. -/
theorem v14_at (s : Fin 4096) (b : Fin 8) (e : Fin 1024) :
    val_main_v14 (F := Ideal) x0 x1 (ix3 s b e) = dev (row x0 x1 s b) e := by
  refine (val_main_v14_apply x0 x1 _).trans ?_
  show val_main_v1 (F := Ideal) x0 x1 (ix3 s b e) - val_main_v13 (F := Ideal) x0 x1 (ix3 s b e)
    = row x0 x1 s b e - mean (row x0 x1 s b)
  refine congrArg₂ (· - ·) (v1_at x0 x1 s b e) ?_
  exact (val_main_v13_apply x0 x1 _).trans
    ((congrArg (val_main_v5 (F := Ideal) x0 x1) (idx_v13 s b e)).trans (v5_at x0 x1 s b 0))

/-- The squares at (s, b, e). -/
theorem v8_at (s : Fin 4096) (b : Fin 8) (e : Fin 1024) :
    val_main_v8 (F := Ideal) x0 x1 (ix3 s b e) = dev (row x0 x1 s b) e * dev (row x0 x1 s b) e := by
  refine (val_main_v8_apply x0 x1 _).trans ?_
  show val_main_v7 (F := Ideal) x0 x1 (ix3 s b e) * val_main_v7 (F := Ideal) x0 x1 (ix3 s b e) = _
  exact congrArg₂ (· * ·) (v7_at x0 x1 s b e) (v7_at x0 x1 s b e)

/-- The sums of squares at (s, b). -/
theorem v9_at (s : Fin 4096) (b : Fin 8) :
    val_main_v9 (F := Ideal) x0 x1 (ix2 s b) = ∑ k : Fin 1024, dev (row x0 x1 s b) k * dev (row x0 x1 s b) k := by
  refine (val_main_v9_apply x0 x1 _).trans ?_
  rw [cst_1_at, zero_add]
  refine Finset.sum_congr rfl fun k _ => ?_
  exact (congrArg (val_main_v8 (F := Ideal) x0 x1) (idx_v9 s b k)).trans (v8_at x0 x1 s b k)

/-- The second splat of the constant 1024. -/
theorem v11_at (i : S4096x8x1.Idx) : val_main_v11 (F := Ideal) i = Ideal.ofBits .f32 0x44800000#32 :=
  (val_main_v11_apply i).trans rfl

/-- The variance column at (s, b) is the row's variance. -/
theorem v12_at (s : Fin 4096) (b : Fin 8) (u : Fin 1) :
    val_main_v12 (F := Ideal) x0 x1 (ix3 s b u) = var (row x0 x1 s b) := by
  refine (val_main_v12_apply x0 x1 _).trans ?_
  show Ideal.div (val_main_v10 (F := Ideal) x0 x1 (ix3 s b u)) (val_main_v11 (F := Ideal) (ix3 s b u))
    = Ideal.div (∑ k : Fin 1024, dev (row x0 x1 s b) k * dev (row x0 x1 s b) k) (Ideal.ofBits .f32 0x44800000#32)
  refine congrArg₂ Ideal.div ?_ (v11_at _)
  exact (val_main_v10_apply x0 x1 _).trans
    ((congrArg (val_main_v9 (F := Ideal) x0 x1) (idx_v10 s b u)).trans (v9_at x0 x1 s b))

/-- The splat of the small constant. -/
theorem v15_at (i : S4096x8x1.Idx) : val_main_v15 (F := Ideal) i = Ideal.ofBits .f32 0x3727C5AC#32 :=
  (val_main_v15_apply i).trans rfl

/-- The scale column at (s, b): the reciprocal square root of the variance plus the small constant. -/
theorem v17_at (s : Fin 4096) (b : Fin 8) (u : Fin 1) :
    val_main_v17 (F := Ideal) x0 x1 (ix3 s b u)
      = Ideal.rsqrt (var (row x0 x1 s b) + Ideal.ofBits .f32 0x3727C5AC#32) := by
  refine (val_main_v17_apply x0 x1 _).trans ?_
  show Ideal.rsqrt (val_main_v12 (F := Ideal) x0 x1 (ix3 s b u) + val_main_v15 (F := Ideal) (ix3 s b u)) = _
  exact congrArg Ideal.rsqrt (congrArg₂ (· + ·) (v12_at x0 x1 s b u) (v15_at _))

/-- The gain, broadcast over all rows, reads the gain vector at the last coordinate. -/
theorem v21_at (s : Fin 4096) (b : Fin 8) (e : Fin 1024) : val_main_v21 (F := Ideal) x2 (ix3 s b e) = x2 (ix1 e) :=
  (val_main_v21_apply x2 _).trans ((congrArg (val_main_v20 (F := Ideal) x2) (idx_v21 s b e)).trans
    ((val_main_v20_apply x2 _).trans (congrArg x2 (idx_v20 0 0 e))))

/-- The offset, broadcast over all rows, reads the offset vector at the last coordinate. -/
theorem v24_at (s : Fin 4096) (b : Fin 8) (e : Fin 1024) : val_main_v24 (F := Ideal) x3 (ix3 s b e) = x3 (ix1 e) :=
  (val_main_v24_apply x3 _).trans ((congrArg (val_main_v23 (F := Ideal) x3) (idx_v24 s b e)).trans
    ((val_main_v23_apply x3 _).trans (congrArg x3 (idx_v23 0 0 e))))

/-- The first bias, broadcast over all rows, reads the bias vector at the last coordinate. -/
theorem v28_at (s : Fin 4096) (b : Fin 8) (k : Fin 128) : val_main_v28 (F := Ideal) x5 (ix3 s b k) = x5 (ix1 k) :=
  (val_main_v28_apply x5 _).trans ((congrArg (val_main_v27 (F := Ideal) x5) (idx_v28 s b k)).trans
    ((val_main_v27_apply x5 _).trans (congrArg x5 (idx_v27 0 0 k))))

/-- The second bias, broadcast over all rows, reads the bias vector at the last coordinate. -/
theorem v33_at (s : Fin 4096) (b : Fin 8) (e : Fin 1024) : val_main_v33 (F := Ideal) x7 (ix3 s b e) = x7 (ix1 e) :=
  (val_main_v33_apply x7 _).trans ((congrArg (val_main_v32 (F := Ideal) x7) (idx_v33 s b e)).trans
    ((val_main_v32_apply x7 _).trans (congrArg x7 (idx_v32 0 0 e))))

/-- The deviation times the broadcast scale. -/
theorem v19_at (s : Fin 4096) (b : Fin 8) (e : Fin 1024) :
    val_main_v19 (F := Ideal) x0 x1 (ix3 s b e)
      = dev (row x0 x1 s b) e * Ideal.rsqrt (var (row x0 x1 s b) + Ideal.ofBits .f32 0x3727C5AC#32) := by
  refine (val_main_v19_apply x0 x1 _).trans ?_
  show val_main_v14 (F := Ideal) x0 x1 (ix3 s b e) * val_main_v18 (F := Ideal) x0 x1 (ix3 s b e) = _
  refine congrArg₂ (· * ·) (v14_at x0 x1 s b e) ?_
  exact (val_main_v18_apply x0 x1 _).trans
    ((congrArg (val_main_v17 (F := Ideal) x0 x1) (idx_v18 s b e)).trans (v17_at x0 x1 s b 0))

/-- The normalised row at (s, b, e). -/
theorem v25_at (s : Fin 4096) (b : Fin 8) (e : Fin 1024) :
    val_main_v25 (F := Ideal) x0 x1 x2 x3 (ix3 s b e)
      = normed (row x0 x1 s b) (fun e => x2 (ix1 e)) (fun e => x3 (ix1 e)) e := by
  refine (val_main_v25_apply x0 x1 x2 x3 _).trans ?_
  show val_main_v19 (F := Ideal) x0 x1 (ix3 s b e) * val_main_v21 (F := Ideal) x2 (ix3 s b e)
      + val_main_v24 (F := Ideal) x3 (ix3 s b e)
    = dev (row x0 x1 s b) e * Ideal.rsqrt (var (row x0 x1 s b) + Ideal.ofBits .f32 0x3727C5AC#32) * x2 (ix1 e)
      + x3 (ix1 e)
  exact congrArg₂ (· + ·) (congrArg₂ (· * ·) (v19_at x0 x1 s b e) (v21_at x2 s b e)) (v24_at x3 s b e)

/-- The first product at (s, b, k): the normalised row against row k of the first weight matrix. -/
theorem v26_at (s : Fin 4096) (b : Fin 8) (k : Fin 128) :
    val_main_v26 (F := Ideal) x0 x1 x2 x3 x4 (ix3 s b k)
      = ∑ d : Fin 1024, normed (row x0 x1 s b) (fun e => x2 (ix1 e)) (fun e => x3 (ix1 e)) d * x4 (ix2 k d) := by
  refine (val_main_v26_apply x0 x1 x2 x3 x4 _).trans ?_
  refine Finset.sum_congr rfl fun d _ => ?_
  refine congrArg₂ (· * ·) ?_ (congrArg x4 (ridx_v26 s b k d))
  exact (congrArg (val_main_v25 (F := Ideal) x0 x1 x2 x3) (lidx_v26 s b k d)).trans (v25_at x0 x1 x2 x3 s b d)

/-- The splat of zero the rectification compares with. -/
theorem call0_at (i : S4096x8x128.Idx) : val_main_call0_v0 (F := Ideal) i = Ideal.ofBits .f32 0x00000000#32 :=
  (val_main_call0_v0_apply i).trans rfl

/-- The rectified hidden unit k of row (s, b). -/
theorem v30_at (s : Fin 4096) (b : Fin 8) (k : Fin 128) :
    val_main_v30 (F := Ideal) x0 x1 x2 x3 x4 x5 (ix3 s b k)
      = hidden (normed (row x0 x1 s b) (fun e => x2 (ix1 e)) (fun e => x3 (ix1 e)))
          (fun k e => x4 (ix2 k e)) (fun k => x5 (ix1 k)) k := by
  refine (val_main_v30_apply x0 x1 x2 x3 x4 x5 _).trans ?_
  show max (val_main_v26 (F := Ideal) x0 x1 x2 x3 x4 (ix3 s b k) + val_main_v28 (F := Ideal) x5 (ix3 s b k))
      (val_main_call0_v0 (F := Ideal) (ix3 s b k))
    = max ((∑ d : Fin 1024, normed (row x0 x1 s b) (fun e => x2 (ix1 e)) (fun e => x3 (ix1 e)) d * x4 (ix2 k d))
        + x5 (ix1 k)) (Ideal.ofBits .f32 0x00000000#32)
  exact congrArg₂ max (congrArg₂ (· + ·) (v26_at x0 x1 x2 x3 x4 s b k) (v28_at x5 s b k)) (call0_at _)

/-- The second product at (s, b, d): the hidden units against row d of the second weight matrix. -/
theorem v31_at (s : Fin 4096) (b : Fin 8) (d : Fin 1024) :
    val_main_v31 (F := Ideal) x0 x1 x2 x3 x4 x5 x6 (ix3 s b d)
      = ∑ k : Fin 128, hidden (normed (row x0 x1 s b) (fun e => x2 (ix1 e)) (fun e => x3 (ix1 e)))
          (fun k e => x4 (ix2 k e)) (fun k => x5 (ix1 k)) k * x6 (ix2 d k) := by
  refine (val_main_v31_apply x0 x1 x2 x3 x4 x5 x6 _).trans ?_
  refine Finset.sum_congr rfl fun k _ => ?_
  refine congrArg₂ (· * ·) ?_ (congrArg x6 (ridx_v31 s b d k))
  exact (congrArg (val_main_v30 (F := Ideal) x0 x1 x2 x3 x4 x5) (lidx_v31 s b d k)).trans
    (v30_at x0 x1 x2 x3 x4 x5 s b k)

end Stages

/-- The reference's result at (s, b, d) is the specification there. -/
theorem ref_apply (x0 : (⟨S4096x8x1024, .f32⟩ : BufTy).Contents (Elt Ideal)) (x1 : (⟨S8x4096x1024, .f32⟩ : BufTy).Contents (Elt Ideal))
    (x2 x3 : (⟨S1024, .f32⟩ : BufTy).Contents (Elt Ideal)) (x4 : (⟨S128x1024, .f32⟩ : BufTy).Contents (Elt Ideal))
    (x5 : (⟨S128, .f32⟩ : BufTy).Contents (Elt Ideal)) (x6 : (⟨S1024x128, .f32⟩ : BufTy).Contents (Elt Ideal))
    (x7 : (⟨S1024, .f32⟩ : BufTy).Contents (Elt Ideal)) (s : Fin 4096) (b : Fin 8) (d : Fin 1024) :
    val_main_v35 (F := Ideal) x0 x1 x2 x3 x4 x5 x6 x7 (ix3 s b d) = outAt x0 x1 x2 x3 x4 x5 x6 x7 s b d := by
  refine (val_main_v35_apply x0 x1 x2 x3 x4 x5 x6 x7 _).trans ?_
  show val_main_v31 (F := Ideal) x0 x1 x2 x3 x4 x5 x6 (ix3 s b d) + val_main_v33 (F := Ideal) x7 (ix3 s b d)
      + val_main_v1 (F := Ideal) x0 x1 (ix3 s b d)
    = (∑ k : Fin 128, hidden (normed (row x0 x1 s b) (fun e => x2 (ix1 e)) (fun e => x3 (ix1 e)))
          (fun k e => x4 (ix2 k e)) (fun k => x5 (ix1 k)) k * x6 (ix2 d k)) + x7 (ix1 d) + row x0 x1 s b d
  exact congrArg₂ (· + ·) (congrArg₂ (· + ·) (v31_at x0 x1 x2 x3 x4 x5 x6 s b d) (v33_at x7 s b d))
    (v1_at x0 x1 s b d)

/-- So the reference's result array is the specification's. -/
theorem ref_eq (x0 : (⟨S4096x8x1024, .f32⟩ : BufTy).Contents (Elt Ideal)) (x1 : (⟨S8x4096x1024, .f32⟩ : BufTy).Contents (Elt Ideal))
    (x2 x3 : (⟨S1024, .f32⟩ : BufTy).Contents (Elt Ideal)) (x4 : (⟨S128x1024, .f32⟩ : BufTy).Contents (Elt Ideal))
    (x5 : (⟨S128, .f32⟩ : BufTy).Contents (Elt Ideal)) (x6 : (⟨S1024x128, .f32⟩ : BufTy).Contents (Elt Ideal))
    (x7 : (⟨S1024, .f32⟩ : BufTy).Contents (Elt Ideal)) :
    val_main_v35 (F := Ideal) x0 x1 x2 x3 x4 x5 x6 x7 = out x0 x1 x2 x3 x4 x5 x6 x7 := by
  funext i
  obtain ⟨s, b, d, rfl⟩ : ∃ (s : Fin 4096) (b : Fin 8) (d : Fin 1024), i = ix3 s b d := ⟨i 0, i 1, i 2, eq_ix3 i⟩
  exact ref_apply x0 x1 x2 x3 x4 x5 x6 x7 s b d

end Cert.Adapter.RefRead
end
-- ==== Proof.Arrays.lean ====
/-
  The arrays the kernel's grid reads, as the host operations before it leave them, and each grid point's input
  blocks as entries of those arrays.

  Before the grid the activations [4096, 8, 1024] are merged into [4096, 8192] (row s, column b·1024 + e holds
  entry (s, b, e)), and the two weight matrices are transposed (and rounded to a narrower format, which is the
  identity on the extended reals). Grid point t reads rows 128·t … 128·t + 127 of the merged activations, the
  same rows of every batch entry of the residual [8, 4096, 1024], and the six parameter arrays whole.
-/
import proofs.«144096_j3564822856011_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Arrays

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## The host operations before the grid -/

/-- The merged activations are the activations recast. -/
theorem V_v0 (c : Dev nD) : (V m c main_v0 : S4096x8192.Idx → Elt F .f32)
    = shapeCast S4096x8192 (m ((c : Thread nD τ).loc main_arg0)) shapeCasts_S4096x8x1024_S4096x8192 := by
  show StableHlo.after hostOps0 (fun b => m (c, b)) (Proc.devRef .tc main_v0) = _
  after_results <;> rfl

/-- The down-projection weights as the grid finds them: transposed, then narrowed. -/
theorem V_v2 (c : Dev nD) : (V m c main_v2 : S1024x128.Idx → Elt F .bf16)
    = truncf .bf16 (transpose S1024x128 [1, 0] (m ((c : Thread nD τ).loc main_arg4)) transposes_S128x1024_S1024x128_1_0) bitsLt_bf16_f32 := by
  show StableHlo.after hostOps0 (fun b => m (c, b)) (Proc.devRef .tc main_v2) = _
  after_results <;> rfl

/-- The up-projection weights as the grid finds them: transposed, then narrowed. -/
theorem V_v4 (c : Dev nD) : (V m c main_v4 : S128x1024.Idx → Elt F .bf16)
    = truncf .bf16 (transpose S128x1024 [1, 0] (m ((c : Thread nD τ).loc main_arg6)) transposes_S1024x128_S128x1024_1_0) bitsLt_bf16_f32 := by
  show StableHlo.after hostOps0 (fun b => m (c, b)) (Proc.devRef .tc main_v4) = _
  after_results <;> rfl

/-- Entry (s, b·1024 + e) of the merged activations is entry (s, b, e) of the activations. -/
theorem V_v0_apply (c : Dev nD) (s : Fin 4096) (b : Fin 8) (e : Fin 1024) (k : Fin 8192) (hk : k.val = b.val * 1024 + e.val) :
    (V m c main_v0 : S4096x8192.Idx → Elt F .f32) (ix2 s k)
      = (m ((c : Thread nD τ).loc main_arg0) : S4096x8x1024.Idx → Elt F .f32) (ix3 s b e) := by
  rw [V_v0]
  refine shapeCast_apply _ _ _ _ ?_
  show ((⟨3, ![4096, 8, 1024]⟩ : Shape).rowMajor (ix3 s b e)).val = ((⟨2, ![4096, 8192]⟩ : Shape).rowMajor (ix2 s k)).val
  rw [Shape.rowMajor_val_three, Shape.rowMajor_val_two]
  show (s.val * 8 + b.val) * 1024 + e.val = s.val * 8192 + k.val
  omega

/-! ## The grid's index maps, decided once over its 32 points -/

/-- Point t reads block row t of the merged activations and of every batch entry of the residual, writes block row t of
    the result, and reads the six parameter arrays whole. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 1) = 0 ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-! ## The input blocks at a point -/

/-- Row p of point t's block of the merged activations is row 128·t + p of the array. -/
theorem iblk0_apply (c : Dev nD) (t : Fin cfg0.N) (p : Fin 128) (k : Fin 8192) (s : Fin 4096) (hs : s.val = t.val * 128 + p.val) :
    (iblk m c 0 t : Vec F S128x8192 .f32) (ix2 p k) = (V m c main_v0 : S4096x8192.Idx → Elt F .f32) (ix2 s k) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t (0 : Fin 2) * 128 + 1 * p.val = s.val; rw [e0, hs]; omega
  | ⟨1, _⟩ => show win0_0.index t (1 : Fin 2) * 8192 + 1 * k.val = k.val; rw [e1]; omega

/-- Row p of batch entry b of point t's block of the residual is row 128·t + p of batch entry b of the array. -/
theorem iblk1_apply (c : Dev nD) (t : Fin cfg0.N) (b : Fin 8) (p : Fin 128) (e : Fin 1024) (s : Fin 4096) (hs : s.val = t.val * 128 + p.val) :
    (iblk m c 1 t : Vec F S8x128x1024 .f32) (ix3 b p e) = (V m c main_arg1 : S8x4096x1024.Idx → Elt F .f32) (ix3 b s e) := by
  obtain ⟨-, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 3) * 8 + 1 * b.val = b.val; rw [e0]; omega
  | ⟨1, _⟩ => show win0_1.index t (1 : Fin 3) * 128 + 1 * p.val = s.val; rw [e1, hs]; omega
  | ⟨2, _⟩ => show win0_1.index t (2 : Fin 3) * 1024 + 1 * e.val = e.val; rw [e2]; omega

/-! ## The six parameter arrays are read whole at every point -/

theorem iblk2_eq (c : Dev nD) (t : Fin cfg0.N) : (iblk m c 2 t : Vec F S1024 .f32) = (V m c main_arg2 : S1024.Idx → Elt F .f32) := by
  obtain ⟨a0, a1, b0, b1, b2, c2, c3, d0, d1, c5, f0, f1, c7, g0, g1⟩ := idx_facts t
  funext x
  unfold iblk
  rw [View.read_apply]
  show V m c main_arg2 _ = V m c main_arg2 x
  refine congrArg (V m c main_arg2) (funext fun a => Fin.ext ?_)
  match a with
  | ⟨0, _⟩ => show win0_2.index t (0 : Fin 1) * 1024 + 1 * (x 0).val = (x 0).val; rw [c2]; omega

theorem iblk3_eq (c : Dev nD) (t : Fin cfg0.N) : (iblk m c 3 t : Vec F S1024 .f32) = (V m c main_arg3 : S1024.Idx → Elt F .f32) := by
  obtain ⟨a0, a1, b0, b1, b2, c2, c3, d0, d1, c5, f0, f1, c7, g0, g1⟩ := idx_facts t
  funext x
  unfold iblk
  rw [View.read_apply]
  show V m c main_arg3 _ = V m c main_arg3 x
  refine congrArg (V m c main_arg3) (funext fun a => Fin.ext ?_)
  match a with
  | ⟨0, _⟩ => show win0_3.index t (0 : Fin 1) * 1024 + 1 * (x 0).val = (x 0).val; rw [c3]; omega

theorem iblk4_eq (c : Dev nD) (t : Fin cfg0.N) : (iblk m c 4 t : Vec F S1024x128 .bf16) = (V m c main_v2 : S1024x128.Idx → Elt F .bf16) := by
  obtain ⟨a0, a1, b0, b1, b2, c2, c3, d0, d1, c5, f0, f1, c7, g0, g1⟩ := idx_facts t
  funext x
  unfold iblk
  rw [View.read_apply]
  show V m c main_v2 _ = V m c main_v2 x
  refine congrArg (V m c main_v2) (funext fun a => Fin.ext ?_)
  match a with
  | ⟨0, _⟩ => show win0_4.index t (0 : Fin 2) * 1024 + 1 * (x 0).val = (x 0).val; rw [d0]; omega
  | ⟨1, _⟩ => show win0_4.index t (1 : Fin 2) * 128 + 1 * (x 1).val = (x 1).val; rw [d1]; omega

theorem iblk5_eq (c : Dev nD) (t : Fin cfg0.N) : (iblk m c 5 t : Vec F S128 .f32) = (V m c main_arg5 : S128.Idx → Elt F .f32) := by
  obtain ⟨a0, a1, b0, b1, b2, c2, c3, d0, d1, c5, f0, f1, c7, g0, g1⟩ := idx_facts t
  funext x
  unfold iblk
  rw [View.read_apply]
  show V m c main_arg5 _ = V m c main_arg5 x
  refine congrArg (V m c main_arg5) (funext fun a => Fin.ext ?_)
  match a with
  | ⟨0, _⟩ => show win0_5.index t (0 : Fin 1) * 128 + 1 * (x 0).val = (x 0).val; rw [c5]; omega

theorem iblk6_eq (c : Dev nD) (t : Fin cfg0.N) : (iblk m c 6 t : Vec F S128x1024 .bf16) = (V m c main_v4 : S128x1024.Idx → Elt F .bf16) := by
  obtain ⟨a0, a1, b0, b1, b2, c2, c3, d0, d1, c5, f0, f1, c7, g0, g1⟩ := idx_facts t
  funext x
  unfold iblk
  rw [View.read_apply]
  show V m c main_v4 _ = V m c main_v4 x
  refine congrArg (V m c main_v4) (funext fun a => Fin.ext ?_)
  match a with
  | ⟨0, _⟩ => show win0_6.index t (0 : Fin 2) * 128 + 1 * (x 0).val = (x 0).val; rw [f0]; omega
  | ⟨1, _⟩ => show win0_6.index t (1 : Fin 2) * 1024 + 1 * (x 1).val = (x 1).val; rw [f1]; omega

theorem iblk7_eq (c : Dev nD) (t : Fin cfg0.N) : (iblk m c 7 t : Vec F S1024 .f32) = (V m c main_arg7 : S1024.Idx → Elt F .f32) := by
  obtain ⟨a0, a1, b0, b1, b2, c2, c3, d0, d1, c5, f0, f1, c7, g0, g1⟩ := idx_facts t
  funext x
  unfold iblk
  rw [View.read_apply]
  show V m c main_arg7 _ = V m c main_arg7 x
  refine congrArg (V m c main_arg7) (funext fun a => Fin.ext ?_)
  match a with
  | ⟨0, _⟩ => show win0_7.index t (0 : Fin 1) * 1024 + 1 * (x 0).val = (x 0).val; rw [c7]; omega

/-! ## The transposed weights at an entry, on the extended reals (narrowing is the identity there) -/

/-- Entry (e, k) of the down-projection weights as the grid finds them is entry (k, e) of the argument. -/
theorem V_v2_apply (mI : (ℓ : Loc nD τ sig) → Buf (Elt Ideal) ℓ) (c : Dev nD) (e : Fin 1024) (k : Fin 128) :
    (V mI c main_v2 : S1024x128.Idx → EReal) (ix2 e k) = (mI ((c : Thread nD τ).loc main_arg4) : S128x1024.Idx → EReal) (ix2 k e) := by
  rw [V_v2]
  exact transpose_ix2_apply _ _ e k

/-- Entry (k, e) of the up-projection weights as the grid finds them is entry (e, k) of the argument. -/
theorem V_v4_apply (mI : (ℓ : Loc nD τ sig) → Buf (Elt Ideal) ℓ) (c : Dev nD) (k : Fin 128) (e : Fin 1024) :
    (V mI c main_v4 : S128x1024.Idx → EReal) (ix2 k e) = (mI ((c : Thread nD τ).loc main_arg6) : S1024x128.Idx → EReal) (ix2 e k) := by
  rw [V_v4]
  exact transpose_ix2_apply _ _ k e

end Cert.KernelIdeal.Arrays

end
-- ==== Proof.Cover.lean ====
/-
  Where the grid writes, and what the host does with the written array.

  Grid point t writes rows 128·t … 128·t + 127 of the [4096, 8192] result, all 8192 columns; the 32 points
  therefore cover the array: row r is written by point r / 128. After the grid the host recasts the array as
  [4096, 8, 1024]: entry (s, b, d) is entry (s, b·1024 + d) of what the grid left.
-/
import proofs.«144096_j3564822856011_2_alg».proof.Proof.Arrays

noncomputable section

namespace Cert.KernelIdeal.Cover

open Cert.KernelIdeal Cert.KernelIdeal.Gen Idealize.ShloMosaic Idealize.ShloMosaic.TcCoe Idealize.SL.Sem
open Idealize.ShloMosaic.ValueIdx Idealize.ShloMosaic.StableHlo Cert.KernelIdeal.Arrays

variable {F : FTy → Type} [FloatOps F]
variable (m : (ℓ : Loc nD τ sig) → Buf (Elt F) ℓ)

/-- An entry of the result array is in point t's block iff each coordinate is in the block's range on its axis. -/
theorem mem_blk8 (t : Fin cfg0.N) (i : S4096x8192.Idx) :
    i ∈ ((cfg0.win 8).blk t).view.set ↔ ∀ a : Fin 2, win0_8.index t a * S128x8192.size a ≤ (i a).val ∧ (i a).val < win0_8.index t a * S128x8192.size a + S128x8192.size a := by
  show i ∈ ((View.whole main_v5).slice (win0_8.rect t)).set ↔ _
  rw [View.set_slice_whole, Rect.mem_set_unit]
  exact Iff.rfl

/-- Every entry of the result array is written by some point: row r by point r / 128. -/
theorem cover8 (i : S4096x8192.Idx) :
    ∃ t : Fin cfg0.N, (cfg0.win 8).flush t = true ∧ i ∈ ((cfg0.win 8).blk t).view.set := by
  have hi0 : (i 0).val < 4096 := (i 0).isLt
  have hi1 : (i 1).val < 8192 := (i 1).isLt
  have hN : cfg0.N = 32 := N_0
  obtain ⟨t, ht⟩ : ∃ t : Fin cfg0.N, t.val = (i 0).val / 128 := ⟨⟨(i 0).val / 128, by rw [hN]; omega⟩, rfl⟩
  obtain ⟨a0, a1, b0, b1, b2, c2, c3, d0, d1, c5, f0, f1, c7, g0, g1⟩ := idx_facts t
  refine ⟨t, flush0_8 t, ?_⟩
  rw [mem_blk8]
  intro a
  match a with
  | ⟨0, _⟩ =>
    show win0_8.index t (0 : Fin 2) * 128 ≤ (i 0).val ∧ (i 0).val < win0_8.index t (0 : Fin 2) * 128 + 128
    rw [g0, ht]; omega
  | ⟨1, _⟩ =>
    show win0_8.index t (1 : Fin 2) * 8192 ≤ (i 1).val ∧ (i 1).val < win0_8.index t (1 : Fin 2) * 8192 + 8192
    rw [g1]; omega

/-- Where point t's block puts its entry (p, k): row 128·t + p, column k. -/
theorem emb8 (t : Fin cfg0.N) (p : Fin 128) (k : Fin 8192) (s : Fin 4096) (hs : s.val = t.val * 128 + p.val) :
    ((cfg0.win 8).blk t).view.emb (ix2 p k) = (ix2 s k : S4096x8192.Idx) := by
  obtain ⟨a0, a1, b0, b1, b2, c2, c3, d0, d1, c5, f0, f1, c7, g0, g1⟩ := idx_facts t
  funext a; apply Fin.ext
  match a with
  | ⟨0, _⟩ => show win0_8.index t (0 : Fin 2) * 128 + 1 * p.val = s.val; rw [g0, hs]; omega
  | ⟨1, _⟩ => show win0_8.index t (1 : Fin 2) * 8192 + 1 * k.val = k.val; rw [g1]; omega

/-- The program's result is the recast of what the grid left in its output array. -/
theorem tail_v6 (c : Dev nD) :
    Pipeline.afterTail₀ cfgs (dats m) 0 (V0 m) [hostOps1] c main_v6
      = shapeCast S4096x8x1024 ((dats m 0 c).arrAt 8 cfg0.N) shapeCasts_S4096x8192_S4096x8x1024 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = (dats m 0 c).arrAt 8 cfg0.N := Pipeline.withArrays_arr spec0 launch0.win.arr_inj c _ _ 8
  funext i
  exact congrArg (fun X => shapeCast S4096x8x1024 X shapeCasts_S4096x8192_S4096x8x1024 i) e

/-- The recast read at an entry: (s, b, d) of the [4096, 8, 1024] array is (s, b·1024 + d) of the [4096, 8192] one. -/
theorem recast_apply {α : Type} (X : S4096x8192.Idx → α) (s : Fin 4096) (b : Fin 8) (d : Fin 1024) (k : Fin 8192)
    (hk : k.val = b.val * 1024 + d.val) :
    shapeCast S4096x8x1024 X shapeCasts_S4096x8192_S4096x8x1024 (ix3 s b d) = X (ix2 s k) := by
  refine shapeCast_apply _ _ _ _ ?_
  show ((⟨2, ![4096, 8192]⟩ : Shape).rowMajor (ix2 s k)).val = ((⟨3, ![4096, 8, 1024]⟩ : Shape).rowMajor (ix3 s b d)).val
  rw [Shape.rowMajor_val_three, Shape.rowMajor_val_two]
  show s.val * 8192 + k.val = (s.val * 8 + b.val) * 1024 + d.val
  omega

end Cert.KernelIdeal.Cover

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«144096_j3564822856011_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.Slab.lean ====
/-
  One iteration of the kernel body: the value it stores for a 128 × 1024 slab of rows.

  The body handles eight slabs; the value stored for each is the same function of the six parameter arrays and of
  the slab's own two loads (a slab of activations and the matching slab of the residual), although the printed
  program spells the eight through differently grouped intermediate values. This module names that function (slab),
  shows that each of the eight printed spellings is it, and reads it at an entry (p, q) on the extended reals: row p
  of the sum of the two loads is normalised, sent through the two affine maps with the rectification between, and
  added back — exactly the specification's row function, with every sum over the same index in the same order.
-/
import proofs.«144096_j3564822856011_2_alg».proof.Proof.Spec
import proofs.«144096_j3564822856011_2_alg».proof.Proof.LibKeepdims
import proofs.«144096_j3564822856011_2_alg».proof.Proof.LibPlainDot
import proofs.«144096_j3564822856011_2_alg».proof.Proof.Gen.KernelIdeal.Skeleton
import Idealize.ShloMosaic.Lib.ValueLayout
import Idealize.ShloMosaic.PureOps.Ideal.Laws

noncomputable section
open scoped BigOperators
namespace Cert.KernelIdeal.Slab
open Cert.KernelIdeal Cert.KernelIdeal.Gen Idealize.ShloMosaic Idealize.ShloMosaic.ValueIdx Cert.Adapter

variable {F : FTy → Type} [FloatOps F]

/-- One iteration's stored value from the six parameter loads and the iteration's two slab loads. -/
def slab (g be : Vec F S1024 .f32) (wd : Vec F S1024x128 .bf16) (bd : Vec F S128 .f32) (wu : Vec F S128x1024 .bf16)
    (bu : Vec F S1024 .f32) (xb : Vec F S128x1024 .f32) (rb : Vec F S1x128x1024 .f32) : FVec F S128x1024 .f32 :=
  k0_pay10 (k0_pay1 g) (k0_pay2 be) (k0_pay3 wd) (k0_pay4 bd) (k0_pay5 wu) (k0_pay6 bu) xb rb

/-! ## The eight printed spellings are the one function

Each differs from slab only in which intermediate values are named: the same operations on the same operands. -/

theorem pay_eq0 (g be : Vec F S1024 .f32) (wd : Vec F S1024x128 .bf16) (bd : Vec F S128 .f32) (wu : Vec F S128x1024 .bf16)
    (bu : Vec F S1024 .f32) (xb : Vec F S128x1024 .f32) (rb : Vec F S1x128x1024 .f32) :
    k0_pay9 (k0_pay3 wd) (k0_pay4 bd) (k0_pay5 wu) (k0_pay6 bu) (k0_pay7 xb rb) (k0_pay8 g be xb rb) (constant S128x128 .f32 0x00000000#32)
      = slab g be wd bd wu bu xb rb := rfl

theorem pay_eq1 (g be : Vec F S1024 .f32) (wd : Vec F S1024x128 .bf16) (bd : Vec F S128 .f32) (wu : Vec F S128x1024 .bf16)
    (bu : Vec F S1024 .f32) (xb : Vec F S128x1024 .f32) (rb : Vec F S1x128x1024 .f32) :
    k0_pay10 (k0_pay1 g) (k0_pay2 be) (k0_pay3 wd) (k0_pay4 bd) (k0_pay5 wu) (k0_pay6 bu) xb rb
      = slab g be wd bd wu bu xb rb := rfl

theorem pay_eq2 (g be : Vec F S1024 .f32) (wd : Vec F S1024x128 .bf16) (bd : Vec F S128 .f32) (wu : Vec F S128x1024 .bf16)
    (bu : Vec F S1024 .f32) (xb : Vec F S128x1024 .f32) (rb : Vec F S1x128x1024 .f32) :
    k0_pay11 (k0_pay1 g) (k0_pay2 be) (k0_pay3 wd) (k0_pay4 bd) (k0_pay5 wu) (k0_pay6 bu) xb rb
      = slab g be wd bd wu bu xb rb := rfl

theorem pay_eq3 (g be : Vec F S1024 .f32) (wd : Vec F S1024x128 .bf16) (bd : Vec F S128 .f32) (wu : Vec F S128x1024 .bf16)
    (bu : Vec F S1024 .f32) (xb : Vec F S128x1024 .f32) (rb : Vec F S1x128x1024 .f32) :
    k0_pay13 (k0_pay1 g) (k0_pay2 be) (k0_pay3 wd) (k0_pay4 bd) (k0_pay5 wu) (k0_pay6 bu) (k0_pay12 xb) rb
      = slab g be wd bd wu bu xb rb := rfl

theorem pay_eq4 (g be : Vec F S1024 .f32) (wd : Vec F S1024x128 .bf16) (bd : Vec F S128 .f32) (wu : Vec F S128x1024 .bf16)
    (bu : Vec F S1024 .f32) (xb : Vec F S128x1024 .f32) (rb : Vec F S1x128x1024 .f32) :
    k0_pay17 (k0_pay1 g) (k0_pay2 be) (k0_pay3 wd) (k0_pay4 bd) (k0_pay5 wu) (k0_pay6 bu) (k0_pay14 xb rb) (k0_pay15 xb rb) (k0_pay16 xb rb)
      = slab g be wd bd wu bu xb rb := rfl

theorem pay_eq5 (g be : Vec F S1024 .f32) (wd : Vec F S1024x128 .bf16) (bd : Vec F S128 .f32) (wu : Vec F S128x1024 .bf16)
    (bu : Vec F S1024 .f32) (xb : Vec F S128x1024 .f32) (rb : Vec F S1x128x1024 .f32) :
    k0_pay21 (k0_pay1 g) (k0_pay2 be) (k0_pay3 wd) (k0_pay4 bd) (k0_pay5 wu) (k0_pay6 bu) (k0_pay18 xb rb) (k0_pay19 xb rb) (k0_pay20 xb rb)
      = slab g be wd bd wu bu xb rb := rfl

theorem pay_eq6 (g be : Vec F S1024 .f32) (wd : Vec F S1024x128 .bf16) (bd : Vec F S128 .f32) (wu : Vec F S128x1024 .bf16)
    (bu : Vec F S1024 .f32) (xb : Vec F S128x1024 .f32) (rb : Vec F S1x128x1024 .f32) :
    k0_pay24 (k0_pay5 wu) (k0_pay6 bu) (k0_pay22 xb rb) (k0_pay23 (k0_pay1 g) (k0_pay2 be) (k0_pay3 wd) (k0_pay4 bd) xb rb)
      = slab g be wd bd wu bu xb rb := rfl

theorem pay_eq7 (g be : Vec F S1024 .f32) (wd : Vec F S1024x128 .bf16) (bd : Vec F S128 .f32) (wu : Vec F S128x1024 .bf16)
    (bu : Vec F S1024 .f32) (xb : Vec F S128x1024 .f32) (rb : Vec F S1x128x1024 .f32) :
    k0_pay25 (k0_pay1 g) (k0_pay2 be) (k0_pay3 wd) (k0_pay4 bd) (k0_pay5 wu) (k0_pay6 bu) xb rb
      = slab g be wd bd wu bu xb rb := rfl

/-! ## The two matrix products are rows times columns -/

/-- The 128 × 1024 by 1024 × 128 product contracts the left operand's columns with the right operand's rows. -/
theorem plain_down : Cert.LibHostRead.PlainDot dot_S128x1024_S1024x128_S128x128_1_0_0_1_n_n where
  hr := rfl
  hs := rfl
  hl0 := fun i q => by
    unfold DotDims.lhsIdx
    rw [dif_neg (show ¬(0 : Fin S128x1024.rank) ∈ dot_S128x1024_S1024x128_S128x128_1_0_0_1_n_n.lhsBatch by decide), dif_pos (show (0 : Fin S128x1024.rank) ∈ dot_S128x1024_S1024x128_S128x128_1_0_0_1_n_n.lhsNonContracting by decide)]
    rfl
  hl1 := fun i q => dot_S128x1024_S1024x128_S128x128_1_0_0_1_n_n.lhsIdx_val_of_single rfl i q
  hr0 := fun i q => dot_S128x1024_S1024x128_S128x128_1_0_0_1_n_n.rhsIdx_val_of_single rfl i q
  hr1 := fun i q => by
    unfold DotDims.rhsIdx
    rw [dif_neg (show ¬(1 : Fin S1024x128.rank) ∈ dot_S128x1024_S1024x128_S128x128_1_0_0_1_n_n.rhsBatch by decide), dif_pos (show (1 : Fin S1024x128.rank) ∈ dot_S128x1024_S1024x128_S128x128_1_0_0_1_n_n.rhsNonContracting by decide)]
    rfl

/-- The 128 × 128 by 128 × 1024 product likewise. -/
theorem plain_up : Cert.LibHostRead.PlainDot dot_S128x128_S128x1024_S128x1024_1_0_0_1_n_n where
  hr := rfl
  hs := rfl
  hl0 := fun i q => by
    unfold DotDims.lhsIdx
    rw [dif_neg (show ¬(0 : Fin S128x128.rank) ∈ dot_S128x128_S128x1024_S128x1024_1_0_0_1_n_n.lhsBatch by decide), dif_pos (show (0 : Fin S128x128.rank) ∈ dot_S128x128_S128x1024_S128x1024_1_0_0_1_n_n.lhsNonContracting by decide)]
    rfl
  hl1 := fun i q => dot_S128x128_S128x1024_S128x1024_1_0_0_1_n_n.lhsIdx_val_of_single rfl i q
  hr0 := fun i q => dot_S128x128_S128x1024_S128x1024_1_0_0_1_n_n.rhsIdx_val_of_single rfl i q
  hr1 := fun i q => by
    unfold DotDims.rhsIdx
    rw [dif_neg (show ¬(1 : Fin S128x1024.rank) ∈ dot_S128x128_S128x1024_S128x1024_1_0_0_1_n_n.rhsBatch by decide), dif_pos (show (1 : Fin S128x1024.rank) ∈ dot_S128x128_S128x1024_S128x1024_1_0_0_1_n_n.rhsNonContracting by decide)]
    rfl

/-! ## A row's sum -/

/-- The sum along the second axis of a 128 × 1024 array, at row p, is the sum of the row's 1024 entries. -/
theorem lane_sum (src : FVec Ideal S128x1024 .f32) (p : Fin 128) :
    multiReduction (F := Ideal) .add [1] S128 src 0x00000000#32 reduces_S128x1024_S128 (.inl rfl) rfl (ix1 p)
      = ∑ k : Fin 1024, src (ix2 p k) := by
  refine (Ideal.multiReduction_add_single src _ reduces_S128x1024_S128 _ _ (ix1 p)).trans ?_
  refine Finset.sum_congr rfl fun k _ => congrArg src ?_
  exact funext fun a => Fin.ext (by match a with | ⟨0, _⟩ => rfl | ⟨1, _⟩ => rfl)

/-! ## The pieces of one iteration, over a 128 × 1024 array of rows

The operations of one iteration, grouped as the specification groups them; X is the array of rows (the sum of the two
loads), G, B, Bu the gain, the offset and the second bias repeated along the rows, Bd the first bias likewise. -/

/-- The sum of the slab of activations and the slab of the residual (its leading unit axis dropped). -/
def rows (xb : Vec Ideal S128x1024 .f32) (rb : Vec Ideal S1x128x1024 .f32) : FVec Ideal S128x1024 .f32 :=
  addf (shapeCast S128x1024 xb shapeCasts_S128x1024_S128x1024) (shapeCast S128x1024 rb shapeCasts_S1x128x1024_S128x1024)

/-- A column's quotient by the constant 1024: the row sums kept as a column, divided. -/
def colMean (X : FVec Ideal S128x1024 .f32) : FVec Ideal S128x1 .f32 :=
  divf (shapeCast S128x1 (multiReduction .add [1] S128 X 0x00000000#32 reduces_S128x1024_S128 (.inl rfl) rfl) shapeCasts_S128_S128x1)
    (broadcast S128x1 (Scalar.ofBits .f32 0x44800000#32))

/-- The rows with their means taken away. -/
def devs (X : FVec Ideal S128x1024 .f32) : FVec Ideal S128x1024 .f32 :=
  subf X (broadcastTo S128x1024 (colMean X) broadcasts_S128x1_S128x1024)

/-- The column of reciprocal square roots of variance plus the small constant. -/
def colRs (X : FVec Ideal S128x1024 .f32) : FVec Ideal S128x1 .f32 :=
  rsqrt (addf (colMean (mulf (devs X) (devs X))) (broadcast S128x1 (Scalar.ofBits .f32 0x3727C5AC#32)))

/-- The normalised rows, in the narrower format (the same extended reals). -/
def normeds (X G B : FVec Ideal S128x1024 .f32) : FVec Ideal S128x1024 .bf16 :=
  truncf .bf16 (addf (mulf (mulf (devs X) (broadcastTo S128x1024 (colRs X) broadcasts_S128x1_S128x1024)) G) B) bitsLt_bf16_f32

/-- The rectified hidden units of every row. -/
def hiddens (H : FVec Ideal S128x1024 .bf16) (W : FVec Ideal S1024x128 .bf16) (Bd : FVec Ideal S128x128 .f32) :
    FVec Ideal S128x128 .bf16 :=
  truncf .bf16 (maximumf (addf (matmul dot_S128x1024_S1024x128_S128x128_1_0_0_1_n_n none H W (constant S128x128 .f32 0x00000000#32)) Bd)
    (broadcast S128x128 (Scalar.ofBits .f32 0x00000000#32))) bitsLt_bf16_f32

/-- One iteration is these pieces composed: the second product of the hidden units, plus its bias, plus the rows. -/
theorem slab_eq (g be : Vec Ideal S1024 .f32) (wd : Vec Ideal S1024x128 .bf16) (bd : Vec Ideal S128 .f32)
    (wu : Vec Ideal S128x1024 .bf16) (bu : Vec Ideal S1024 .f32) (xb : Vec Ideal S128x1024 .f32) (rb : Vec Ideal S1x128x1024 .f32) :
    slab g be wd bd wu bu xb rb
      = addf (addf (matmul dot_S128x128_S128x1024_S128x1024_1_0_0_1_n_n none
            (hiddens (normeds (rows xb rb) (k0_pay1 g) (k0_pay2 be)) (k0_pay3 wd) (k0_pay4 bd)) (k0_pay5 wu)
            (constant S128x1024 .f32 0x00000000#32)) (k0_pay6 bu)) (rows xb rb) := rfl

/-! ## The pieces at an entry -/

/-- Row p of the array of rows: the activation row plus the residual row. -/
theorem rows_at (xb : Vec Ideal S128x1024 .f32) (rb : Vec Ideal S1x128x1024 .f32) (p : Fin 128) (e : Fin 1024) :
    rows xb rb (ix2 p e) = xb (ix2 p e) + rb (ix3 (0 : Fin 1) p e) := by
  show shapeCast S128x1024 xb shapeCasts_S128x1024_S128x1024 (ix2 p e)
      + shapeCast S128x1024 rb shapeCasts_S1x128x1024_S128x1024 (ix2 p e) = _
  rw [shapeCast_self xb, shapeCast_1ab_ab_apply rb]

/-- The column of means at row p is the specification's mean of row p. -/
theorem colMean_at (X : FVec Ideal S128x1024 .f32) (p : Fin 128) :
    colMean X (ix2 p (0 : Fin 1)) = mean fun e => X (ix2 p e) :=
  congrArg (fun s => Ideal.div s (Ideal.ofBits .f32 0x44800000#32))
    ((Cert.LibKeepdims.shapeCast_a_a1_apply _ shapeCasts_S128_S128x1 p 0).trans (lane_sum X p))

/-- The deviations at (p, e). -/
theorem devs_at (X : FVec Ideal S128x1024 .f32) (p : Fin 128) (e : Fin 1024) :
    devs X (ix2 p e) = dev (fun e => X (ix2 p e)) e :=
  congrArg (fun m => X (ix2 p e) - m)
    ((Cert.LibKeepdims.broadcastTo_a1_ab_apply (colMean X) broadcasts_S128x1_S128x1024 p e).trans (colMean_at X p))

/-- The mean of the squared deviations of row p is the specification's variance of row p. -/
theorem sqMean_at (X : FVec Ideal S128x1024 .f32) (p : Fin 128) :
    colMean (mulf (devs X) (devs X)) (ix2 p (0 : Fin 1)) = var fun e => X (ix2 p e) :=
  (colMean_at _ p).trans (congrArg (fun s => Ideal.div s (Ideal.ofBits .f32 0x44800000#32))
    (Finset.sum_congr rfl fun k _ => congrArg₂ (· * ·) (devs_at X p k) (devs_at X p k)))

/-- The column of scale factors at row p. -/
theorem colRs_at (X : FVec Ideal S128x1024 .f32) (p : Fin 128) :
    colRs X (ix2 p (0 : Fin 1)) = Ideal.rsqrt (var (fun e => X (ix2 p e)) + Ideal.ofBits .f32 0x3727C5AC#32) :=
  congrArg (fun v => Ideal.rsqrt (v + Ideal.ofBits .f32 0x3727C5AC#32)) (sqMean_at X p)

/-- The normalised rows at (p, e), the gain and the offset still as arrays. -/
theorem normeds_at (X G B : FVec Ideal S128x1024 .f32) (p : Fin 128) (e : Fin 1024) :
    normeds X G B (ix2 p e)
      = dev (fun e => X (ix2 p e)) e * Ideal.rsqrt (var (fun e => X (ix2 p e)) + Ideal.ofBits .f32 0x3727C5AC#32) * G (ix2 p e)
          + B (ix2 p e) := by
  show devs X (ix2 p e) * broadcastTo S128x1024 (colRs X) broadcasts_S128x1_S128x1024 (ix2 p e) * G (ix2 p e) + B (ix2 p e) = _
  rw [Cert.LibKeepdims.broadcastTo_a1_ab_apply (colRs X), colRs_at, devs_at]

/-- The hidden units at (p, k): the product's sum over the 1024 entries of row p, plus the bias, rectified. -/
theorem hiddens_at (H : FVec Ideal S128x1024 .bf16) (W : FVec Ideal S1024x128 .bf16) (Bd : FVec Ideal S128x128 .f32)
    (p : Fin 128) (k : Fin 128) :
    hiddens H W Bd (ix2 p k)
      = max ((∑ d : Fin 1024, H (ix2 p d) * W (ix2 d k)) + Bd (ix2 p k)) (Ideal.ofBits .f32 0x00000000#32) :=
  congrArg (fun s => max (s + Bd (ix2 p k)) (Ideal.ofBits .f32 0x00000000#32))
    (Cert.LibPlainDot.vmatmul_apply dot_S128x1024_S1024x128_S128x128_1_0_0_1_n_n plain_down H W p k)

/-! ## The parameter arrays at an entry -/

/-- The gain repeated along the rows. -/
theorem gain_at (g : Vec Ideal S1024 .f32) (p : Fin 128) (e : Fin 1024) : k0_pay1 g (ix2 p e) = g (ix1 e) :=
  Cert.LibPlainDot.rowBias_apply g shapeCasts_S1024_S1x1024 broadcasts_S1x1024_S128x1024 p e

/-- The offset repeated along the rows. -/
theorem offset_at (be : Vec Ideal S1024 .f32) (p : Fin 128) (e : Fin 1024) : k0_pay2 be (ix2 p e) = be (ix1 e) :=
  Cert.LibPlainDot.rowBias_apply be shapeCasts_S1024_S1x1024 broadcasts_S1x1024_S128x1024 p e

/-- The first bias repeated along the rows. -/
theorem downBias_at (bd : Vec Ideal S128 .f32) (p : Fin 128) (k : Fin 128) : k0_pay4 bd (ix2 p k) = bd (ix1 k) :=
  Cert.LibPlainDot.rowBias_apply bd shapeCasts_S128_S1x128 broadcasts_S1x128_S128x128 p k

/-- The second bias repeated along the rows. -/
theorem upBias_at (bu : Vec Ideal S1024 .f32) (p : Fin 128) (e : Fin 1024) : k0_pay6 bu (ix2 p e) = bu (ix1 e) :=
  Cert.LibPlainDot.rowBias_apply bu shapeCasts_S1024_S1x1024 broadcasts_S1x1024_S128x1024 p e

/-- The first weight matrix, cast to its own shape, is itself. -/
theorem downW_eq (wd : Vec Ideal S1024x128 .bf16) : k0_pay3 wd = wd := shapeCast_self wd shapeCasts_S1024x128_S1024x128

/-- The second weight matrix likewise. -/
theorem upW_eq (wu : Vec Ideal S128x1024 .bf16) : k0_pay5 wu = wu := shapeCast_self wu shapeCasts_S128x1024_S128x1024

/-! ## One iteration at an entry -/

/-- The normalised row p of the slab is the specification's normalised row. -/
theorem normed_row (g be : Vec Ideal S1024 .f32) (xb : Vec Ideal S128x1024 .f32) (rb : Vec Ideal S1x128x1024 .f32)
    (p : Fin 128) (d : Fin 1024) :
    normeds (rows xb rb) (k0_pay1 g) (k0_pay2 be) (ix2 p d)
      = normed (fun e => xb (ix2 p e) + rb (ix3 (0 : Fin 1) p e)) (fun e => g (ix1 e)) (fun e => be (ix1 e)) d := by
  refine (normeds_at _ _ _ p d).trans ?_
  have hr : (fun e => rows xb rb (ix2 p e)) = fun e => xb (ix2 p e) + rb (ix3 (0 : Fin 1) p e) := funext (rows_at xb rb p)
  rw [hr, gain_at, offset_at]
  rfl

/-- The hidden unit k of row p of the slab is the specification's. -/
theorem hidden_row (g be : Vec Ideal S1024 .f32) (wd : Vec Ideal S1024x128 .bf16) (bd : Vec Ideal S128 .f32)
    (xb : Vec Ideal S128x1024 .f32) (rb : Vec Ideal S1x128x1024 .f32) (p : Fin 128) (k : Fin 128) :
    hiddens (normeds (rows xb rb) (k0_pay1 g) (k0_pay2 be)) (k0_pay3 wd) (k0_pay4 bd) (ix2 p k)
      = hidden (normed (fun e => xb (ix2 p e) + rb (ix3 (0 : Fin 1) p e)) (fun e => g (ix1 e)) (fun e => be (ix1 e)))
          (fun k e => wd (ix2 e k)) (fun k => bd (ix1 k)) k := by
  refine (hiddens_at _ _ _ p k).trans ?_
  rw [downBias_at, downW_eq]
  exact congrArg (fun s => max (s + bd (ix1 k)) (Ideal.ofBits .f32 0x00000000#32))
    (Finset.sum_congr rfl fun d _ => congrArg (· * wd (ix2 d k)) (normed_row g be xb rb p d))

/-- At the ideal instance, entry (p, q) of a slab's stored value is the specification's row function of row p. -/
theorem slab_apply (g be : Vec Ideal S1024 .f32) (wd : Vec Ideal S1024x128 .bf16) (bd : Vec Ideal S128 .f32)
    (wu : Vec Ideal S128x1024 .bf16) (bu : Vec Ideal S1024 .f32) (xb : Vec Ideal S128x1024 .f32) (rb : Vec Ideal S1x128x1024 .f32)
    (p : Fin 128) (q : Fin 1024) :
    slab g be wd bd wu bu xb rb (ix2 p q)
      = rowOut (fun e => xb (ix2 p e) + rb (ix3 (0 : Fin 1) p e)) (fun e => g (ix1 e)) (fun e => be (ix1 e))
          (fun k e => wd (ix2 e k)) (fun k => bd (ix1 k)) (fun e k => wu (ix2 k e)) (fun e => bu (ix1 e)) q := by
  rw [slab_eq]
  show matmul dot_S128x128_S128x1024_S128x1024_1_0_0_1_n_n none
        (hiddens (normeds (rows xb rb) (k0_pay1 g) (k0_pay2 be)) (k0_pay3 wd) (k0_pay4 bd)) (k0_pay5 wu)
        (constant S128x1024 .f32 0x00000000#32) (ix2 p q) + k0_pay6 bu (ix2 p q) + rows xb rb (ix2 p q) = _
  rw [Cert.LibPlainDot.vmatmul_apply dot_S128x128_S128x1024_S128x1024_1_0_0_1_n_n plain_up, upBias_at, rows_at, upW_eq]
  exact congrArg (fun s => s + bu (ix1 q) + (xb (ix2 p q) + rb (ix3 (0 : Fin 1) p q)))
    (Finset.sum_congr rfl fun k _ => congrArg (· * wu (ix2 k q)) (hidden_row g be wd bd xb rb p k))

end Cert.KernelIdeal.Slab
end
-- ==== Proof.Block.lean ====
/-
  What a grid point leaves in its [128, 8192] output block, as one function of the block's index.

  The body stores eight [128, 1024] slabs side by side: slab b occupies columns b·1024 … b·1024 + 1023, and is
  computed from the same columns of the point's block of the merged activations and from batch entry b of its block
  of the residual. So entry (p, k) of the block is the specification's row function of the row
  e ↦ x0(p, b·1024 + e) + x1(b, p, e), read at q, where b = k / 1024 and q = k % 1024 — whichever store wrote it.
-/
import proofs.«144096_j3564822856011_2_alg».proof.Proof.Slab
import proofs.«144096_j3564822856011_2_alg».proof.Proof.Gen.KernelIdeal.Frame
import Idealize.ShloMosaic.Lib.Pipeline.Value

noncomputable section

open scoped BigOperators

namespace Cert.KernelIdeal.Block

open Cert.KernelIdeal Cert.KernelIdeal.Gen Cert.KernelIdeal.Slab Idealize.ShloMosaic Idealize.ShloMosaic.ValueIdx Cert.Adapter

/-! ## Columns of the merged axis: k = b·1024 + q -/

/-- The column of the merged axis that holds entry e of batch entry b. -/
def colOf (b : Fin 8) (e : Fin 1024) : Fin 8192 := ⟨b.val * 1024 + e.val, by have := b.isLt; have := e.isLt; omega⟩
/-- The batch entry a column of the merged axis belongs to. -/
def colB (k : Fin 8192) : Fin 8 := ⟨k.val / 1024, by have := k.isLt; omega⟩
/-- The entry within its batch entry. -/
def colQ (k : Fin 8192) : Fin 1024 := ⟨k.val % 1024, Nat.mod_lt _ (by decide)⟩

theorem colOf_val (b : Fin 8) (e : Fin 1024) : (colOf b e).val = b.val * 1024 + e.val := rfl
theorem colB_colOf (b : Fin 8) (e : Fin 1024) : colB (colOf b e) = b :=
  Fin.ext (by show (b.val * 1024 + e.val) / 1024 = b.val; have := e.isLt; omega)
theorem colQ_colOf (b : Fin 8) (e : Fin 1024) : colQ (colOf b e) = e :=
  Fin.ext (by show (b.val * 1024 + e.val) % 1024 = e.val; have := e.isLt; omega)
theorem colOf_colB_colQ (k : Fin 8192) : colOf (colB k) (colQ k) = k :=
  Fin.ext (by show k.val / 1024 * 1024 + k.val % 1024 = k.val; omega)

/-! ## The rectangles of the body's loads and stores -/

/-- A [128, 1024] rectangle of the [128, 8192] block at column offset b·1024 places its entry (p, q) at (p, b·1024 + q). -/
theorem emb_cols (o : Nat) (inb : ∀ a, (![0, o] : Fin 2 → Nat) a + S128x1024.size a ≤ S128x8192.size a) (b : Fin 8)
    (ho : o = b.val * 1024) (p : Fin 128) (q : Fin 1024) :
    (Rect.unit (s := S128x8192) ![0, o] S128x1024.size inb).emb (ix2 p q) = (ix2 p (colOf b q) : S128x8192.Idx) := by
  funext a; apply Fin.ext
  match a with
  | ⟨0, _⟩ => show 0 + 1 * p.val = p.val; omega
  | ⟨1, _⟩ => show o + 1 * q.val = b.val * 1024 + q.val; omega

/-- A load through it reads the same columns. -/
theorem ld_cols (x0 : Vec Ideal S128x8192 .f32) (o : Nat) (inb : ∀ a, (![0, o] : Fin 2 → Nat) a + S128x1024.size a ≤ S128x8192.size a)
    (b : Fin 8) (ho : o = b.val * 1024) (p : Fin 128) (e : Fin 1024) :
    View.ld x0 (Rect.unit (s := S128x8192) ![0, o] S128x1024.size inb) (ix2 p e) = x0 (ix2 p (colOf b e)) :=
  congrArg x0 (emb_cols o inb b ho p e)

/-- A load of batch entry b of the [8, 128, 1024] residual block reads (b, p, e) at its (0, p, e). -/
theorem ld_batch (x1 : Vec Ideal S8x128x1024 .f32) (o : Nat) (inb : ∀ a, (![o, 0, 0] : Fin 3 → Nat) a + S1x128x1024.size a ≤ S8x128x1024.size a)
    (b : Fin 8) (ho : o = b.val) (p : Fin 128) (e : Fin 1024) :
    View.ld x1 (Rect.unit (s := S8x128x1024) ![o, 0, 0] S1x128x1024.size inb) (ix3 (0 : Fin 1) p e) = x1 (ix3 b p e) := by
  refine congrArg x1 (funext fun a => Fin.ext ?_)
  match a with
  | ⟨0, _⟩ => show o + 1 * 0 = b.val; omega
  | ⟨1, _⟩ => show 0 + 1 * p.val = p.val; omega
  | ⟨2, _⟩ => show 0 + 1 * e.val = e.val; omega

/-! ## The block as one function -/

section
variable (x0 : Vec Ideal S128x8192 .f32) (x1 : Vec Ideal S8x128x1024 .f32) (x2 x3 : Vec Ideal S1024 .f32)
  (x4 : Vec Ideal S1024x128 .bf16) (x5 : Vec Ideal S128 .f32) (x6 : Vec Ideal S128x1024 .bf16) (x7 : Vec Ideal S1024 .f32)

/-- Entry (p, k) of the output block from the eight input blocks. -/
def blockAt (p : Fin 128) (k : Fin 8192) : EReal :=
  rowOut (fun e => x0 (ix2 p (colOf (colB k) e)) + x1 (ix3 (colB k) p e)) (fun e => x2 (ix1 e)) (fun e => x3 (ix1 e))
    (fun j e => x4 (ix2 e j)) (fun j => x5 (ix1 j)) (fun e j => x6 (ix2 j e)) (fun e => x7 (ix1 e)) (colQ k)

/-- The output block. -/
def blockFn : Vec Ideal S128x8192 .f32 := fun y => blockAt x0 x1 x2 x3 x4 x5 x6 x7 (y 0) (y 1)

/-- A slab computed from columns b·1024 … of the activations block and batch entry b of the residual block is the block
    function on those columns. -/
theorem slab_piece (b : Fin 8) (xb : Vec Ideal S128x1024 .f32) (rb : Vec Ideal S1x128x1024 .f32)
    (hxb : ∀ (p : Fin 128) (e : Fin 1024), xb (ix2 p e) = x0 (ix2 p (colOf b e)))
    (hrb : ∀ (p : Fin 128) (e : Fin 1024), rb (ix3 (0 : Fin 1) p e) = x1 (ix3 b p e)) (p : Fin 128) (q : Fin 1024) :
    slab (View.ld x2 r0_0) (View.ld x3 r0_0) (View.ld x4 r0_1) (View.ld x5 r0_2) (View.ld x6 r0_3) (View.ld x7 r0_0) xb rb (ix2 p q)
      = blockFn x0 x1 x2 x3 x4 x5 x6 x7 (ix2 p (colOf b q)) := by
  have hz1 : (![0] : Fin 1 → Nat) = fun _ => 0 := funext fun a => by fin_cases a <;> rfl
  have hz2 : (![0, 0] : Fin 2 → Nat) = fun _ => 0 := funext fun a => by fin_cases a <;> rfl
  rw [View.ld_unit_zero (S := S1024) hz1, View.ld_unit_zero (S := S1024) hz1, View.ld_unit_zero (S := S1024) hz1,
    View.ld_unit_zero (S := S1024x128) hz2, View.ld_unit_zero (S := S128) hz1, View.ld_unit_zero (S := S128x1024) hz2]
  rw [slab_apply]
  show _ = blockAt x0 x1 x2 x3 x4 x5 x6 x7 p (colOf b q)
  unfold blockAt
  rw [colB_colOf, colQ_colOf]
  refine congrArg (fun r => rowOut r (fun e => x2 (ix1 e)) (fun e => x3 (ix1 e)) (fun j e => x4 (ix2 e j)) (fun j => x5 (ix1 j))
    (fun e j => x6 (ix2 j e)) (fun e => x7 (ix1 e)) q) (funext fun e => ?_)
  rw [hxb, hrb]

/-- The eight stores leave the block function. -/
theorem out_block : out0_8 x0 x1 x2 x3 x4 x5 x6 x7 = blockFn x0 x1 x2 x3 x4 x5 x6 x7 := by
  funext y
  unfold out0_8
  refine View.canon_apply_of_pieces (Val := Elt Ideal) (blockFn x0 x1 x2 x3 x4 x5 x6 x7) _ ?_ y (cover0_8 _ _ _ _ _ _ _ _ y)
  intro pc hpc x
  simp only [List.mem_cons, List.mem_nil_iff, or_false] at hpc
  rcases hpc with rfl | rfl | rfl | rfl | rfl | rfl | rfl | rfl
  · obtain ⟨p, q, rfl⟩ : ∃ (p : Fin 128) (q : Fin 1024), x = ix2 p q := ⟨x 0, x 1, eq_ix2 x⟩
    rw [show r0_18.emb (ix2 p q) = (ix2 p (colOf 7 q) : S128x8192.Idx) from emb_cols _ _ 7 rfl p q]
    exact (congrFun (pay_eq7 (View.ld x2 r0_0) (View.ld x3 r0_0) (View.ld x4 r0_1) (View.ld x5 r0_2) (View.ld x6 r0_3) (View.ld x7 r0_0) (View.ld x0 r0_18) (View.ld x1 r0_19)) _).trans
      (slab_piece x0 x1 x2 x3 x4 x5 x6 x7 7 _ _ (fun p e => ld_cols x0 _ _ 7 rfl p e) (fun p e => ld_batch x1 _ _ 7 rfl p e) p q)
  · obtain ⟨p, q, rfl⟩ : ∃ (p : Fin 128) (q : Fin 1024), x = ix2 p q := ⟨x 0, x 1, eq_ix2 x⟩
    rw [show r0_16.emb (ix2 p q) = (ix2 p (colOf 6 q) : S128x8192.Idx) from emb_cols _ _ 6 rfl p q]
    exact (congrFun (pay_eq6 (View.ld x2 r0_0) (View.ld x3 r0_0) (View.ld x4 r0_1) (View.ld x5 r0_2) (View.ld x6 r0_3) (View.ld x7 r0_0) (View.ld x0 r0_16) (View.ld x1 r0_17)) _).trans
      (slab_piece x0 x1 x2 x3 x4 x5 x6 x7 6 _ _ (fun p e => ld_cols x0 _ _ 6 rfl p e) (fun p e => ld_batch x1 _ _ 6 rfl p e) p q)
  · obtain ⟨p, q, rfl⟩ : ∃ (p : Fin 128) (q : Fin 1024), x = ix2 p q := ⟨x 0, x 1, eq_ix2 x⟩
    rw [show r0_14.emb (ix2 p q) = (ix2 p (colOf 5 q) : S128x8192.Idx) from emb_cols _ _ 5 rfl p q]
    exact (congrFun (pay_eq5 (View.ld x2 r0_0) (View.ld x3 r0_0) (View.ld x4 r0_1) (View.ld x5 r0_2) (View.ld x6 r0_3) (View.ld x7 r0_0) (View.ld x0 r0_14) (View.ld x1 r0_15)) _).trans
      (slab_piece x0 x1 x2 x3 x4 x5 x6 x7 5 _ _ (fun p e => ld_cols x0 _ _ 5 rfl p e) (fun p e => ld_batch x1 _ _ 5 rfl p e) p q)
  · obtain ⟨p, q, rfl⟩ : ∃ (p : Fin 128) (q : Fin 1024), x = ix2 p q := ⟨x 0, x 1, eq_ix2 x⟩
    rw [show r0_12.emb (ix2 p q) = (ix2 p (colOf 4 q) : S128x8192.Idx) from emb_cols _ _ 4 rfl p q]
    exact (congrFun (pay_eq4 (View.ld x2 r0_0) (View.ld x3 r0_0) (View.ld x4 r0_1) (View.ld x5 r0_2) (View.ld x6 r0_3) (View.ld x7 r0_0) (View.ld x0 r0_12) (View.ld x1 r0_13)) _).trans
      (slab_piece x0 x1 x2 x3 x4 x5 x6 x7 4 _ _ (fun p e => ld_cols x0 _ _ 4 rfl p e) (fun p e => ld_batch x1 _ _ 4 rfl p e) p q)
  · obtain ⟨p, q, rfl⟩ : ∃ (p : Fin 128) (q : Fin 1024), x = ix2 p q := ⟨x 0, x 1, eq_ix2 x⟩
    rw [show r0_10.emb (ix2 p q) = (ix2 p (colOf 3 q) : S128x8192.Idx) from emb_cols _ _ 3 rfl p q]
    exact (congrFun (pay_eq3 (View.ld x2 r0_0) (View.ld x3 r0_0) (View.ld x4 r0_1) (View.ld x5 r0_2) (View.ld x6 r0_3) (View.ld x7 r0_0) (View.ld x0 r0_10) (View.ld x1 r0_11)) _).trans
      (slab_piece x0 x1 x2 x3 x4 x5 x6 x7 3 _ _ (fun p e => ld_cols x0 _ _ 3 rfl p e) (fun p e => ld_batch x1 _ _ 3 rfl p e) p q)
  · obtain ⟨p, q, rfl⟩ : ∃ (p : Fin 128) (q : Fin 1024), x = ix2 p q := ⟨x 0, x 1, eq_ix2 x⟩
    rw [show r0_8.emb (ix2 p q) = (ix2 p (colOf 2 q) : S128x8192.Idx) from emb_cols _ _ 2 rfl p q]
    exact (congrFun (pay_eq2 (View.ld x2 r0_0) (View.ld x3 r0_0) (View.ld x4 r0_1) (View.ld x5 r0_2) (View.ld x6 r0_3) (View.ld x7 r0_0) (View.ld x0 r0_8) (View.ld x1 r0_9)) _).trans
      (slab_piece x0 x1 x2 x3 x4 x5 x6 x7 2 _ _ (fun p e => ld_cols x0 _ _ 2 rfl p e) (fun p e => ld_batch x1 _ _ 2 rfl p e) p q)
  · obtain ⟨p, q, rfl⟩ : ∃ (p : Fin 128) (q : Fin 1024), x = ix2 p q := ⟨x 0, x 1, eq_ix2 x⟩
    rw [show r0_6.emb (ix2 p q) = (ix2 p (colOf 1 q) : S128x8192.Idx) from emb_cols _ _ 1 rfl p q]
    exact (congrFun (pay_eq1 (View.ld x2 r0_0) (View.ld x3 r0_0) (View.ld x4 r0_1) (View.ld x5 r0_2) (View.ld x6 r0_3) (View.ld x7 r0_0) (View.ld x0 r0_6) (View.ld x1 r0_7)) _).trans
      (slab_piece x0 x1 x2 x3 x4 x5 x6 x7 1 _ _ (fun p e => ld_cols x0 _ _ 1 rfl p e) (fun p e => ld_batch x1 _ _ 1 rfl p e) p q)
  · obtain ⟨p, q, rfl⟩ : ∃ (p : Fin 128) (q : Fin 1024), x = ix2 p q := ⟨x 0, x 1, eq_ix2 x⟩
    rw [show r0_4.emb (ix2 p q) = (ix2 p (colOf 0 q) : S128x8192.Idx) from emb_cols _ _ 0 rfl p q]
    exact (congrFun (pay_eq0 (View.ld x2 r0_0) (View.ld x3 r0_0) (View.ld x4 r0_1) (View.ld x5 r0_2) (View.ld x6 r0_3) (View.ld x7 r0_0) (View.ld x0 r0_4) (View.ld x1 r0_5)) _).trans
      (slab_piece x0 x1 x2 x3 x4 x5 x6 x7 0 _ _ (fun p e => ld_cols x0 _ _ 0 rfl p e) (fun p e => ld_batch x1 _ _ 0 rfl p e) p q)

end

end Cert.KernelIdeal.Block

end
-- ==== Proof.Final.lean ====
/-
  The idealized kernel's result, on the extended reals, is the specification.

  What point t leaves in its output block (the block function of its input blocks) is block t of ONE function of the
  argument arrays: entry (r, k) of the [4096, 8192] array is the specification at (r, k / 1024, k % 1024) — the input
  blocks at point t are rows 128·t … of the merged activations and of the residual, and the parameter arrays whole, the
  two weight matrices transposed. The 32 blocks cover the array, so after the grid it holds that function; the host's
  recast to [4096, 8, 1024] then reads entry (s, b, d) at (s, b·1024 + d), which is the specification at (s, b, d).
-/
import proofs.«144096_j3564822856011_2_alg».proof.Proof.Spec
import proofs.«144096_j3564822856011_2_alg».proof.Proof.Arrays
import proofs.«144096_j3564822856011_2_alg».proof.Proof.Cover
import proofs.«144096_j3564822856011_2_alg».proof.Proof.Block

noncomputable section

namespace Cert.KernelIdeal.Final

open Cert.KernelIdeal Cert.KernelIdeal.Gen Idealize.ShloMosaic Idealize.ShloMosaic.TcCoe Idealize.SL.Sem
open Idealize.ShloMosaic.ValueIdx
open Cert.KernelIdeal.Arrays Cert.KernelIdeal.Cover Cert.KernelIdeal.Block Cert.Adapter

variable (m : (ℓ : Loc nD τ sig) → Buf (Elt Ideal) ℓ) (ρ : Dev nD → PrngReg)

/-- The specification over the argument arrays as launched. -/
abbrev spec (c : Dev nD) : FVec Ideal ⟨3, ![4096, 8, 1024]⟩ .f32 :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What the grid's [4096, 8192] output array holds: entry (r, k) is the specification at (r, k / 1024, k % 1024). -/
def grid (c : Dev nD) : Vec Ideal S4096x8192 .f32 := fun i =>
  outAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (i 0) (colB (i 1)) (colQ (i 1))

/-- The block function of point t's input blocks, at (p, k), is the grid function at row 128·t + p. -/
theorem block_eq_grid (c : Dev nD) (t : Fin cfg0.N) (p : Fin 128) (k : Fin 8192) (s : Fin 4096) (hs : s.val = t.val * 128 + p.val) :
    blockAt (iblk m c 0 t) (iblk m c 1 t) (iblk m c 2 t) (iblk m c 3 t) (iblk m c 4 t) (iblk m c 5 t) (iblk m c 6 t) (iblk m c 7 t) p k
      = grid m c (ix2 s k) := by
  show _ = outAt _ _ _ _ _ _ _ _ s (colB k) (colQ k)
  unfold blockAt outAt
  rw [iblk2_eq, iblk3_eq, iblk4_eq, iblk5_eq, iblk6_eq, iblk7_eq, V_main_arg2, V_main_arg3, V_main_arg5, V_main_arg7]
  have hrow0 : ∀ e : Fin 1024, (iblk m c 0 t : Vec Ideal S128x8192 .f32) (ix2 p (colOf (colB k) e))
      = (m ((c : Thread nD τ).loc main_arg0) : S4096x8x1024.Idx → EReal) (ix3 s (colB k) e) := fun e =>
    (iblk0_apply m c t p _ s hs).trans (V_v0_apply m c s (colB k) e _ (colOf_val _ _))
  have hrow1 : ∀ e : Fin 1024, (iblk m c 1 t : Vec Ideal S8x128x1024 .f32) (ix3 (colB k) p e)
      = (m ((c : Thread nD τ).loc main_arg1) : S8x4096x1024.Idx → EReal) (ix3 (colB k) s e) := fun e =>
    (iblk1_apply m c t (colB k) p e s hs).trans (congrFun (V_main_arg1 m c) _)
  have hwd : ∀ (j : Fin 128) (e : Fin 1024), (V m c main_v2 : S1024x128.Idx → EReal) (ix2 e j)
      = (m ((c : Thread nD τ).loc main_arg4) : S128x1024.Idx → EReal) (ix2 j e) := fun j e => V_v2_apply m c e j
  have hwu : ∀ (e : Fin 1024) (j : Fin 128), (V m c main_v4 : S128x1024.Idx → EReal) (ix2 j e)
      = (m ((c : Thread nD τ).loc main_arg6) : S1024x128.Idx → EReal) (ix2 e j) := fun e j => V_v4_apply m c j e
  simp only [hrow0, hrow1, hwd, hwu]

/-- What point t writes back is block t of the grid function. -/
theorem flushed_eq (c : Dev nD) (t : Fin cfg0.N) :
    (dats m 0 c).flushed 8 t = ((cfg0.win 8).blk t).view.read (Elt Ideal) (grid m c) := by
  show (cfg0.win 8).cut (grid0.coords t) ((dats m 0 c).after 8 t) = _
  rw [after0_8, out_block]
  funext j
  revert j
  show ∀ j : S128x8192.Idx, blockFn (iblk m c 0 t) (iblk m c 1 t) (iblk m c 2 t) (iblk m c 3 t) (iblk m c 4 t) (iblk m c 5 t) (iblk m c 6 t) (iblk m c 7 t) j
      = grid m c (((cfg0.win 8).blk t).view.emb j)
  intro j
  obtain ⟨p, k, rfl⟩ : ∃ (p : Fin 128) (k : Fin 8192), j = ix2 p k := ⟨j 0, j 1, eq_ix2 j⟩
  have hN : cfg0.N = 32 := N_0
  obtain ⟨s, hs⟩ : ∃ s : Fin 4096, s.val = t.val * 128 + p.val :=
    ⟨⟨t.val * 128 + p.val, by have h1 : t.val < 32 := lt_of_lt_of_eq t.isLt hN; have h2 := p.isLt; omega⟩, rfl⟩
  rw [emb8 t p k s hs]
  exact block_eq_grid m c t p k s hs

/-- The grid's output array after the run holds the grid function. -/
theorem final8 (c : Dev nD) : (dats m 0 c).arrAt 8 cfg0.N = grid m c :=
  (dats m 0 c).arrAt_eq_of_cover 8 (grid m c) (fun t _ => flushed_eq m c t) cover8

/-- The recast of the grid function is the specification. -/
theorem recast_grid (c : Dev nD) :
    shapeCast S4096x8x1024 (grid m c) shapeCasts_S4096x8192_S4096x8x1024 = spec m c := by
  funext i
  obtain ⟨s, b, d, rfl⟩ : ∃ (s : Fin 4096) (b : Fin 8) (d : Fin 1024), i = ix3 s b d := ⟨i 0, i 1, i 2, eq_ix3 i⟩
  rw [recast_apply (grid m c) s b d (colOf b d) (colOf_val b d)]
  show outAt _ _ _ _ _ _ _ _ s (colB (colOf b d)) (colQ (colOf b d)) = outAt _ _ _ _ _ _ _ _ s b d
  rw [colB_colOf, colQ_colOf]

/-- The program's result after the host's recast is the specification. -/
theorem result_eq (c : Dev nD) :
    Pipeline.afterTail₀ cfgs (dats m) 0 (V0 m) [hostOps1] c main_v6 = spec m c := by
  rw [tail_v6, final8, recast_grid]

/-- The run, read: the result at the specification of the arguments, the arguments unchanged. -/
theorem run : θ_run defs (onTc (τ := τ) (main (F := Ideal))) ⟨m, fun _ => 0, ρ⟩ (fun r => ∀ c : Dev nD,
      r.2.mem ((c.tc : Thread nD τ).loc main_v6) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v6 (Pipeline.mem_restRefs_of main_v6 (by decide) (by decide))).trans (result_eq m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c)))⟩)
    (run_main m ρ)

end Cert.KernelIdeal.Final

end
-- ==== Proof.lean ====
/-
  A residual adapter layer over f32[4096, 8, 1024] activations: r = x[s, b, ·] + residual[b, s, ·]; the row is normalised
  (mean and variance over its 1024 entries, the reciprocal square root of the variance plus a small constant, a gain and an
  offset), projected down to 128 units, rectified, projected back up to 1024, and r is added back.

  The kernel works on the activations merged to [4096, 8192] in 32 blocks of 128 rows, eight [128, 1024] slabs per
  block, with the two weight matrices transposed beforehand and rounded to a narrower format on the way into the
  matrix products; the reference does the same arithmetic with whole-array operations. On the extended reals a change of
  format is the identity, a matrix product into a zero accumulator and a lane sum are plain finite sums, and both
  programs apply the same operations in the same order with the same three constants, so the two results agree entry by
  entry for every input: the precondition is never opened.

  The pieces: Spec (the function of one row), RefRead (the reference's result is it), Slab (so is each slab the body
  stores), Block (the eight stores of a grid point as one function of the block index), Arrays and Cover (the arrays and
  blocks the grid reads, where it writes, the host's recast), Final (the kernel's run read as the specification).
  The three frames are the generated frame certificates and the reference's generated run; the idealization rewrote
  nothing, so its conjunct is trivial.
-/
import proofs.«144096_j3564822856011_2_alg».proof.Defs
import proofs.«144096_j3564822856011_2_alg».proof.Proof.Gen.Kernel
import proofs.«144096_j3564822856011_2_alg».proof.Proof.Gen.Kernel.Skeleton
import proofs.«144096_j3564822856011_2_alg».proof.Proof.Gen.Kernel.Launch
import proofs.«144096_j3564822856011_2_alg».proof.Proof.Gen.Kernel.Points
import proofs.«144096_j3564822856011_2_alg».proof.Proof.Gen.Kernel.Frame
import proofs.«144096_j3564822856011_2_alg».proof.Proof.Gen.KernelIdeal
import proofs.«144096_j3564822856011_2_alg».proof.Proof.Gen.KernelIdeal.Skeleton
import proofs.«144096_j3564822856011_2_alg».proof.Proof.Gen.KernelIdeal.Launch
import proofs.«144096_j3564822856011_2_alg».proof.Proof.Gen.KernelIdeal.Points
import proofs.«144096_j3564822856011_2_alg».proof.Proof.Gen.KernelIdeal.Frame
import proofs.«144096_j3564822856011_2_alg».proof.Proof.Gen.ReferenceIdeal
import proofs.«144096_j3564822856011_2_alg».proof.Proof.Gen.ReferenceIdeal.Run
import proofs.«144096_j3564822856011_2_alg».proof.Proof.Gen.ReferenceIdeal.Read
import proofs.«144096_j3564822856011_2_alg».proof.Proof.Gen.Pre_finite_inputs
import proofs.«144096_j3564822856011_2_alg».proof.Proof.RefRead
import proofs.«144096_j3564822856011_2_alg».proof.Proof.Final
import Idealize.ShloMosaic.Adequacy
import Idealize.ShloMosaic.Init

noncomputable section

namespace Cert.Proof

open Idealize.ShloMosaic Idealize.SL.Sem

/-- The kernel as printed runs to the end, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result and the reference's are the specification of the same arguments. -/
theorem algebraic : Cert.algebraic_KernelIdeal_ReferenceIdeal := by
  intro m ρ m' ρ' _ hagree
  refine ⟨fun c => Cert.KernelIdeal.Final.spec m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v35_eq, Cert.Adapter.RefRead.ref_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
